-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel

variable [Facts]

def fn {F : FTy → Type} [FloatOps F] (main_arg0 : FVec F S1024x100000 .f32) (main_arg1 : FVec F S1024x100000 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  main_v8
-- ==== Kernel.lean ====
abbrev S1024x100000 : Shape := ⟨2, ![1024, 100000]⟩
abbrev S100000x1024 : Shape := ⟨2, ![100000, 1024]⟩
abbrev S1x1x128 : Shape := ⟨3, ![1, 1, 128]⟩
abbrev S2000x1024 : Shape := ⟨2, ![2000, 1024]⟩
abbrev S1x1024 : Shape := ⟨2, ![1, 1024]⟩
abbrev S1x500 : Shape := ⟨2, ![1, 500]⟩
abbrev S500x1024 : Shape := ⟨2, ![500, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S1024x100000, .f32⟩
  | .hbm, ⟨1, _⟩ => ⟨S1024x100000, .f32⟩
  | .hbm, ⟨2, _⟩ => ⟨S100000x1024, .f32⟩
  | .hbm, ⟨3, _⟩ => ⟨S100000x1024, .f32⟩
  | .hbm, ⟨4, _⟩ => ⟨S1x1x128, .f32⟩
  | .hbm, ⟨5, _⟩ => ⟨S1x1x1, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2000x1024, .f32⟩
  | .local _ .vmem, ⟨1, _⟩ => ⟨S2000x1024, .f32⟩
  | .local _ .vmem, ⟨2, _⟩ => ⟨S2000x1024, .f32⟩
  | .local _ .vmem, ⟨3, _⟩ => ⟨S2000x1024, .f32⟩
  | .local _ .vmem, ⟨4, _⟩ => ⟨S1x1x128, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v127 : BitVec 1 := Scalar.cmpi .eq arg0 c49_i32
  let v128 : BitVec 32 := Scalar.extui v127
  let c0_i32_53 : BitVec 32 := 0#32
  let v129 : BitVec 1 := Scalar.cmpi .ne v128 c0_i32_53
  v129

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x100000_S100000x1024_1_0 : S1024x100000.Transposes [1, 0] S100000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1024_S500x1024_0_0 : ∀ a, (![0, 0] : Fin 2 → Nat) a + S500x1024.size a ≤ S2000x1024.size a
  h_S500x1024 : 0 < S500x1024.numel
  shapeCasts_S500x1024_S500x1024 : S500x1024.ShapeCasts S500x1024
  inb_S2000x1024_S500x1024_500_0 : ∀ a, (![500, 0] : Fin 2 → Nat) a + S500x1024.size a ≤ S2000x1024.size a
  inb_S2000x1024_S500x1024_1000_0 : ∀ a, (![1000, 0] : Fin 2 → Nat) a + S500x1024.size a ≤ S2000x1024.size a
  inb_S2000x1024_S500x1024_1500_0 : ∀ a, (![1500, 0] : Fin 2 → Nat) a + S500x1024.size a ≤ S2000x1024.size a
  reduces_S500x1024_S1024 : S500x1024.Reduces [0] S1024
  shapeCasts_S1024_S1x1024 : S1024.ShapeCasts S1x1024
  broadcasts_S1x1024_S500x1024 : S1x1024.Broadcasts S500x1024
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S1x1x128_S1x1x1_0_0_0 : S1x1x128.Slices ![0, 0, 0] S1x1x1
  shapeCasts_S1x1x1_S1 : S1x1x1.ShapeCasts S1
  reducesTo_S1_S_d0 : S1.ReducesTo [0] S_
  h_S_ : 0 < S_.numel
  dot_S1x500_S500x1024_S1x1024_1_0_0_1_n_n_wf : DotDims.WF S1x500 S500x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S100000x1024.size a
  hwx0_1 : ∀ i : grid0.Coords, EltTy.bits .f32 = 32 ∨ (Rect.block (s := S100000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S1x1x128.size a
  hwx0_2 : ∀ i : grid0.Coords, EltTy.bits .f32 = 32 ∨ (Rect.block (s := S1x1x128) S1x1x128.size (cc0_transform_2 i) (hinb0_2 i)).WholeWords (EltTy.packing .f32)

variable [Facts₀]

def dot_S1x500_S500x1024_S1x1024_1_0_0_1_n_n : DotDims S1x500 S500x1024 S1x1024 where
  lhsContracting := [1]
  rhsContracting := [0]
  lhsNonContracting := [0]
  rhsNonContracting := [1]
  lhsBatch := []
  rhsBatch := []
  wf := dot_S1x500_S500x1024_S1x1024_1_0_0_1_n_n_wf

abbrev win0_0 : Pipeline.Window sig grid0 :=
  Pipeline.Window.ofSpec (Memref.whole main_v0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S_ : Shape := ⟨0, ![]⟩
abbrev S1024 : Shape := ⟨1, ![1024]⟩
abbrev S1024x1 : Shape := ⟨2, ![1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x100000, .f32⟩
  | .hbm, ⟨2, _⟩ => ⟨S_, .f32⟩
  | .hbm, ⟨3, _⟩ => ⟨S1024x100000, .f32⟩
  | .hbm, ⟨4, _⟩ => ⟨S1024x100000, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x100000, .f32⟩
  | .hbm, ⟨29, _⟩ => ⟨S1024x100000, .f32⟩
  | .hbm, ⟨30, _⟩ => ⟨S1024x100000, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S1024x1, .f32⟩
  | .hbm, ⟨35, _⟩ => ⟨S1024x100000, .f32⟩
  | .hbm, ⟨36, _⟩ => ⟨S1024x100000, .f32⟩
  | .hbm, ⟨37, _⟩ => ⟨S_, .f32⟩
  | .hbm, ⟨38, _⟩ => ⟨S1024x100000, .f32⟩
  | .hbm, ⟨39, _⟩ => ⟨S1024x100000, .i1⟩
  | .hbm, ⟨40, _⟩ => ⟨S1024x100000, .i1⟩
  | .hbm, ⟨41, _⟩ => ⟨S1024x100000, .i1⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024x100000, .f32⟩
  | .hbm, ⟨46, _⟩ => ⟨S1024x100000, .f32⟩
  | .hbm, ⟨47, _⟩ => ⟨S1024x100000, .f32⟩
  | .hbm, ⟨48, _⟩ => ⟨S1024x100000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_cst_8 : Ref sig .tc := ⟨.hbm, 53, rfl⟩
abbrev main_v28 : Ref sig .tc := ⟨.hbm, 54, rfl⟩

abbrev nD : Nat := 1
abbrev τ : Topo := Topo.v7x

variable {F : FTy → Type} [FloatOps F]

class Facts₀ : Prop where
  bcast_S_S1024x100000 : S_.BroadcastsInDim S1024x100000 (![] : Fin 0 → Fin S1024x100000.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  reducesTo_S1024x100000_S_d0_1 : S1024x100000.ReducesTo [0, 1] S_

variable [Facts₀]

class Facts : Prop extends Facts₀ where

variable [Facts]
-- ==== Proof.Pieces.lean ====
/-
  What each case of the kernel's body leaves in its five accumulators and in its output block, as pure terms.

  The body reads the English block `x1` and the Korean block `x0` (2000 rows of 1024 lanes each, as four
  sub-blocks of 500 rows) and the accumulators `xs0 .. xs4` (running maximum, sum of exponentials and cross term
  of the English logits; running maximum and sum of exponentials of the Korean logits), and stores the new
  accumulators `newMe`, `newZe`, `newS`, `newMk`, `newZk`. At the first grid point the accumulators are first
  set to their starting values; at the last one the output block is the sum over the lanes of the lane losses
  formed from the NEW accumulators (`outBlock`).
-/
import proofs.«108505_g52810917872248_cont_9to1_m_94_21_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Step
variable (x0 x1 : Vec F S2000x1024 .f32) (xs0 xs1 xs2 xs3 xs4 : Vec F S1x1024 .f32)

/-- The new running maximum of the English logits. -/
def newMe : FVec F S1x1024 .f32 :=
  k0_pay18 (View.ld x1 (Rect.unit ![0, 0] ![500, 1024] inb_S2000x1024_S500x1024_0_0)) (View.ld x1 (Rect.unit ![500, 0] ![500, 1024] inb_S2000x1024_S500x1024_500_0)) (View.ld x1 (Rect.unit ![1000, 0] ![500, 1024] inb_S2000x1024_S500x1024_1000_0)) (View.ld x1 (Rect.unit ![1500, 0] ![500, 1024] inb_S2000x1024_S500x1024_1500_0)) xs0

/-- The new running sum of exponentials of the English logits. -/
def newZe : FVec F S1x1024 .f32 :=
  k0_pay25 k0_pay9 (k0_pay10 (View.ld x1 (Rect.unit ![0, 0] ![500, 1024] inb_S2000x1024_S500x1024_0_0))) (k0_pay11 (View.ld x1 (Rect.unit ![500, 0] ![500, 1024] inb_S2000x1024_S500x1024_500_0))) (k0_pay12 (View.ld x1 (Rect.unit ![1000, 0] ![500, 1024] inb_S2000x1024_S500x1024_1000_0))) (k0_pay13 (View.ld x1 (Rect.unit ![1500, 0] ![500, 1024] inb_S2000x1024_S500x1024_1500_0))) xs0 (newMe x1 xs0) xs1

/-- The new running cross term. -/
def newS : FVec F S1x1024 .f32 :=
  k0_pay24 k0_pay9 (k0_pay10 (View.ld x1 (Rect.unit ![0, 0] ![500, 1024] inb_S2000x1024_S500x1024_0_0))) (k0_pay11 (View.ld x1 (Rect.unit ![500, 0] ![500, 1024] inb_S2000x1024_S500x1024_500_0))) (k0_pay12 (View.ld x1 (Rect.unit ![1000, 0] ![500, 1024] inb_S2000x1024_S500x1024_1000_0))) (k0_pay13 (View.ld x1 (Rect.unit ![1500, 0] ![500, 1024] inb_S2000x1024_S500x1024_1500_0))) (k0_pay14 (View.ld x0 (Rect.unit ![0, 0] ![500, 1024] inb_S2000x1024_S500x1024_0_0))) (k0_pay15 (View.ld x0 (Rect.unit ![500, 0] ![500, 1024] inb_S2000x1024_S500x1024_500_0))) (k0_pay16 (View.ld x0 (Rect.unit ![1000, 0] ![500, 1024] inb_S2000x1024_S500x1024_1000_0))) (k0_pay17 (View.ld x0 (Rect.unit ![1500, 0] ![500, 1024] inb_S2000x1024_S500x1024_1500_0))) xs0 (newMe x1 xs0) xs2

/-- The new running maximum of the Korean logits. -/
def newMk : FVec F S1x1024 .f32 :=
  k0_pay28 (k0_pay14 (View.ld x0 (Rect.unit ![0, 0] ![500, 1024] inb_S2000x1024_S500x1024_0_0))) (k0_pay15 (View.ld x0 (Rect.unit ![500, 0] ![500, 1024] inb_S2000x1024_S500x1024_500_0))) (k0_pay16 (View.ld x0 (Rect.unit ![1000, 0] ![500, 1024] inb_S2000x1024_S500x1024_1000_0))) (k0_pay17 (View.ld x0 (Rect.unit ![1500, 0] ![500, 1024] inb_S2000x1024_S500x1024_1500_0))) xs3

/-- The new running sum of exponentials of the Korean logits. -/
def newZk : FVec F S1x1024 .f32 :=
  k0_pay1 (k0_pay29 k0_pay9 (k0_pay14 (View.ld x0 (Rect.unit ![0, 0] ![500, 1024] inb_S2000x1024_S500x1024_0_0))) (k0_pay15 (View.ld x0 (Rect.unit ![500, 0] ![500, 1024] inb_S2000x1024_S500x1024_500_0))) (k0_pay16 (View.ld x0 (Rect.unit ![1000, 0] ![500, 1024] inb_S2000x1024_S500x1024_1000_0))) (k0_pay17 (View.ld x0 (Rect.unit ![1500, 0] ![500, 1024] inb_S2000x1024_S500x1024_1500_0))) xs3 xs4) (k0_pay30 k0_pay9 (k0_pay14 (View.ld x0 (Rect.unit ![0, 0] ![500, 1024] inb_S2000x1024_S500x1024_0_0))) (k0_pay15 (View.ld x0 (Rect.unit ![500, 0] ![500, 1024] inb_S2000x1024_S500x1024_500_0))) (k0_pay16 (View.ld x0 (Rect.unit ![1000, 0] ![500, 1024] inb_S2000x1024_S500x1024_1000_0))) (k0_pay17 (View.ld x0 (Rect.unit ![1500, 0] ![500, 1024] inb_S2000x1024_S500x1024_1500_0))) xs3)

/-- The output block of the last point: the lanes' losses of the new accumulators, summed. -/
def outBlock : FVec F S1x1x128 .f32 :=
  k0_pay3 (k0_pay26 (newS x0 x1 xs0 xs2)) (newZe x1 xs0 xs1) (k0_pay27 (newMe x1 xs0)) (newZe x1 xs0 xs1)
    (k0_pay2 (newMk x0 xs3)) (newZk x0 xs3 xs4)

end Step

end Cert.KernelIdeal.Pieces

end
-- ==== Proof.PieceEq.lean ====
/-
  The accumulators and the output block each case of the body leaves, in the vocabulary of `Pieces`.

  At a middle point and at the last point each accumulator ends at its new value computed from the point's two
  blocks and the accumulators the point before left; at the first point the same with the starting values in place
  of the old accumulators; at the last point the output block is `outBlock`.
-/
import proofs.«108505_g52810917872248_cont_9to1_m_94_21_alg».proof.Proof.Pieces

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem sB0 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : ¬cond0_1 i) (x0 x1 : Vec F S2000x1024 .f32) (xs0 xs1 xs2 xs3 xs4 : Vec F S1x1024 .f32) :
    sout0_B_0 c i a1 h1 a2 h2 a3 h3 a4 h4 a5 h5 a6 h6 a7 h7 a8 h8 hc0 hc1 x0 x1 xs0 xs1 xs2 xs3 xs4 = k0_pay27 (newMe x1 xs0) := by
  unfold sout0_B_0
  rw [View.read_writes_eq_canon _ _ _ (scover0_B_0 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sB1 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : ¬cond0_1 i) (x0 x1 : Vec F S2000x1024 .f32) (xs0 xs1 xs2 xs3 xs4 : Vec F S1x1024 .f32) :
    sout0_B_1 c i a1 h1 a2 h2 a3 h3 a4 h4 a5 h5 a6 h6 a7 h7 a8 h8 hc0 hc1 x0 x1 xs0 xs1 xs2 xs3 xs4 = newZe x1 xs0 xs1 := by
  unfold sout0_B_1
  rw [View.read_writes_eq_canon _ _ _ (scover0_B_1 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sB2 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : ¬cond0_1 i) (x0 x1 : Vec F S2000x1024 .f32) (xs0 xs1 xs2 xs3 xs4 : Vec F S1x1024 .f32) :
    sout0_B_2 c i a1 h1 a2 h2 a3 h3 a4 h4 a5 h5 a6 h6 a7 h7 a8 h8 hc0 hc1 x0 x1 xs0 xs1 xs2 xs3 xs4 = k0_pay26 (newS x0 x1 xs0 xs2) := by
  unfold sout0_B_2
  rw [View.read_writes_eq_canon _ _ _ (scover0_B_2 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sB3 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : ¬cond0_1 i) (x0 x1 : Vec F S2000x1024 .f32) (xs0 xs1 xs2 xs3 xs4 : Vec F S1x1024 .f32) :
    sout0_B_3 c i a1 h1 a2 h2 a3 h3 a4 h4 a5 h5 a6 h6 a7 h7 a8 h8 hc0 hc1 x0 x1 xs0 xs1 xs2 xs3 xs4 = k0_pay2 (newMk x0 xs3) := by
  unfold sout0_B_3
  rw [View.read_writes_eq_canon _ _ _ (scover0_B_3 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sB4 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : ¬cond0_1 i) (x0 x1 : Vec F S2000x1024 .f32) (xs0 xs1 xs2 xs3 xs4 : Vec F S1x1024 .f32) :
    sout0_B_4 c i a1 h1 a2 h2 a3 h3 a4 h4 a5 h5 a6 h6 a7 h7 a8 h8 hc0 hc1 x0 x1 xs0 xs1 xs2 xs3 xs4 = newZk x0 xs3 xs4 := by
  unfold sout0_B_4
  rw [View.read_writes_eq_canon _ _ _ (scover0_B_4 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sC0 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : cond0_1 i) (x0 x1 : Vec F S2000x1024 .f32) (xs0 xs1 xs2 xs3 xs4 : Vec F S1x1024 .f32) :
    sout0_C_0 c i a1 h1 a2 h2 a3 h3 a4 h4 a5 h5 a6 h6 a7 h7 a8 h8 hc0 hc1 x0 x1 xs0 xs1 xs2 xs3 xs4 = k0_pay27 (newMe x1 xs0) := by
  unfold sout0_C_0
  rw [View.read_writes_eq_canon _ _ _ (scover0_C_0 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sC1 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : cond0_1 i) (x0 x1 : Vec F S2000x1024 .f32) (xs0 xs1 xs2 xs3 xs4 : Vec F S1x1024 .f32) :
    sout0_C_1 c i a1 h1 a2 h2 a3 h3 a4 h4 a5 h5 a6 h6 a7 h7 a8 h8 hc0 hc1 x0 x1 xs0 xs1 xs2 xs3 xs4 = newZe x1 xs0 xs1 := by
  unfold sout0_C_1
  rw [View.read_writes_eq_canon _ _ _ (scover0_C_1 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sC2 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : cond0_1 i) (x0 x1 : Vec F S2000x1024 .f32) (xs0 xs1 xs2 xs3 xs4 : Vec F S1x1024 .f32) :
    sout0_C_2 c i a1 h1 a2 h2 a3 h3 a4 h4 a5 h5 a6 h6 a7 h7 a8 h8 hc0 hc1 x0 x1 xs0 xs1 xs2 xs3 xs4 = k0_pay26 (newS x0 x1 xs0 xs2) := by
  unfold sout0_C_2
  rw [View.read_writes_eq_canon _ _ _ (scover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sC3 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : cond0_1 i) (x0 x1 : Vec F S2000x1024 .f32) (xs0 xs1 xs2 xs3 xs4 : Vec F S1x1024 .f32) :
    sout0_C_3 c i a1 h1 a2 h2 a3 h3 a4 h4 a5 h5 a6 h6 a7 h7 a8 h8 hc0 hc1 x0 x1 xs0 xs1 xs2 xs3 xs4 = k0_pay2 (newMk x0 xs3) := by
  unfold sout0_C_3
  rw [View.read_writes_eq_canon _ _ _ (scover0_C_3 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem sC4 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : cond0_1 i) (x0 x1 : Vec F S2000x1024 .f32) (xs0 xs1 xs2 xs3 xs4 : Vec F S1x1024 .f32) :
    sout0_C_4 c i a1 h1 a2 h2 a3 h3 a4 h4 a5 h5 a6 h6 a7 h7 a8 h8 hc0 hc1 x0 x1 xs0 xs1 xs2 xs3 xs4 = newZk x0 xs3 xs4 := by
  unfold sout0_C_4
  rw [View.read_writes_eq_canon _ _ _ (scover0_C_4 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x1024) hz2]
  rfl

theorem oC (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : ¬cond0_0 i) (hc1 : cond0_1 i) (x0 x1 : Vec F S2000x1024 .f32) (xs0 xs1 xs2 xs3 xs4 : Vec F S1x1024 .f32) :
    out0_C_2 c i a1 h1 a2 h2 a3 h3 a4 h4 a5 h5 a6 h6 a7 h7 a8 h8 hc0 hc1 x0 x1 xs0 xs1 xs2 xs3 xs4 = outBlock x0 x1 xs0 xs1 xs2 xs3 xs4 := by
  unfold out0_C_2
  rw [View.read_writes_eq_canon _ _ _ (cover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz3]
  simp only [View.readCov_unit_zero (S := S1x1024) _ hz2]
  simp only [View.readAt_eq_ld, h1.read_unread, h2.read_unread, h3.read_unread, h4.read_unread, h5.read_unread, h6.read_unread, h7.read_unread, h8.read_unread, View.ld_unit_zero (S := S1x1024) hz2]
  rfl

theorem sA0 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : cond0_0 i) (hc1 : ¬cond0_1 i) (x0 x1 : Vec F S2000x1024 .f32) :
    sout0_A_0 c i a1 h1 a2 h2 a3 h3 a4 h4 a5 h5 a6 h6 a7 h7 a8 h8 hc0 hc1 x0 x1 = k0_pay27 (newMe x1 k0_pay4) := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_cons_unit_zero (S := S1x1024) hz2]
  simp only [View.readCov_unit_zero (S := S1x1024) _ hz2]
  simp only [View.readAt_eq_ld, h1.read_unread, h2.read_unread, h3.read_unread, h4.read_unread, h5.read_unread, h6.read_unread, h7.read_unread, h8.read_unread, View.ld_unit_zero (S := S1x1024) hz2]
  rfl

theorem sA1 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : cond0_0 i) (hc1 : ¬cond0_1 i) (x0 x1 : Vec F S2000x1024 .f32) :
    sout0_A_1 c i a1 h1 a2 h2 a3 h3 a4 h4 a5 h5 a6 h6 a7 h7 a8 h8 hc0 hc1 x0 x1 = newZe x1 k0_pay4 k0_pay5 := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_cons_unit_zero (S := S1x1024) hz2]
  simp only [View.readCov_unit_zero (S := S1x1024) _ hz2]
  simp only [View.readAt_eq_ld, h1.read_unread, h2.read_unread, h3.read_unread, h4.read_unread, h5.read_unread, h6.read_unread, h7.read_unread, h8.read_unread, View.ld_unit_zero (S := S1x1024) hz2]
  rfl

theorem sA2 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : cond0_0 i) (hc1 : ¬cond0_1 i) (x0 x1 : Vec F S2000x1024 .f32) :
    sout0_A_2 c i a1 h1 a2 h2 a3 h3 a4 h4 a5 h5 a6 h6 a7 h7 a8 h8 hc0 hc1 x0 x1 = k0_pay26 (newS x0 x1 k0_pay4 k0_pay6) := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  rw [View.canon_cons_unit_zero (S := S1x1024) hz2]
  simp only [View.readCov_unit_zero (S := S1x1024) _ hz2]
  simp only [View.readAt_eq_ld, h1.read_unread, h2.read_unread, h3.read_unread, h4.read_unread, h5.read_unread, h6.read_unread, h7.read_unread, h8.read_unread, View.ld_unit_zero (S := S1x1024) hz2]
  rfl

theorem sA3 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : cond0_0 i) (hc1 : ¬cond0_1 i) (x0 x1 : Vec F S2000x1024 .f32) :
    sout0_A_3 c i a1 h1 a2 h2 a3 h3 a4 h4 a5 h5 a6 h6 a7 h7 a8 h8 hc0 hc1 x0 x1 = k0_pay2 (newMk x0 k0_pay7) := by
  unfold sout0_A_3
  rw [View.read_writes_eq_canon _ _ _ (scover0_A_3 c i a1 h1 a2 h2 a3 h3 a4 h4 a5 h5 a6 h6 a7 h7 a8 h8 hc0 hc1 x0 x1)]
  unfold kernelRun0_A
  dsimp only
  sl_unfold_words
  rw [View.canon_cons_unit_zero (S := S1x1024) hz2]
  simp only [View.readCov_unit_zero (S := S1x1024) _ hz2]
  simp only [View.readAt_eq_ld, h1.read_unread, h2.read_unread, h3.read_unread, h4.read_unread, h5.read_unread, h6.read_unread, h7.read_unread, h8.read_unread, View.ld_unit_zero (S := S1x1024) hz2]
  rfl

theorem sA4 (c : Dev nD) (i : grid0.Coords) (a1 : Memref sig .tc .vmem S2000x1024 .f32) (h1 : a1.IsWhole) (a2 : Memref sig .tc .vmem S2000x1024 .f32) (h2 : a2.IsWhole) (a3 : Memref sig .tc .vmem S1x1x128 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (hc0 : cond0_0 i) (hc1 : ¬cond0_1 i) (x0 x1 : Vec F S2000x1024 .f32) :
    sout0_A_4 c i a1 h1 a2 h2 a3 h3 a4 h4 a5 h5 a6 h6 a7 h7 a8 h8 hc0 hc1 x0 x1 = newZk x0 k0_pay7 k0_pay8 := by
  unfold sout0_A_4
  rw [View.read_writes_eq_canon _ _ _ (scover0_A_4 c i a1 h1 a2 h2 a3 h3 a4 h4 a5 h5 a6 h6 a7 h7 a8 h8 hc0 hc1 x0 x1)]
  unfold kernelRun0_A
  dsimp only
  sl_unfold_words
  rw [View.canon_cons_unit_zero (S := S1x1024) hz2]
  simp only [View.readCov_unit_zero (S := S1x1024) _ hz2]
  simp only [View.readAt_eq_ld, h1.read_unread, h2.read_unread, h3.read_unread, h4.read_unread, h5.read_unread, h6.read_unread, h7.read_unread, h8.read_unread, View.ld_unit_zero (S := S1x1024) hz2]
  rfl

end Cert.KernelIdeal.Pieces

end
-- ==== Proof.RowLoss.lean ====
/-
  The mathematics of one batch row, over the real numbers.

  A row has English logits `e j` and Korean logits `k j`, `j < n`. For a shift `a` write
  `Z n e a = Σ_j exp (e j - a)` and `S n e k a = Σ_j exp (e j - a) * (e j - k j)`. The row's loss
  `S / Z - a - log Z + b + log (Z n k b)` does not depend on the two shifts `a`, `b`: both `S` and `Z`
  scale by `exp (a' - a)` when the shift moves from `a` to `a'`, so their quotient is unchanged and
  `a + log Z` is the log-sum-exp of the row. It is also the row's Kullback–Leibler sum
  `Σ_j p j * log (p j) - p j * q j` with `p = softmax e` and `q = log_softmax k` computed at any shifts,
  since `log (p j) = (e j - a) - log Z` and `Σ_j p j = 1`.
  A running pair `(shift, sum)` kept over blocks of the row: moving the shift rescales the sum so far,
  and the new block's terms are added at the new shift (`Z_chunk`, `S_chunk`).
-/
import Mathlib

noncomputable section

namespace Cert.RowLoss

open Finset Real

/-- `Σ_{j<n} exp (x j - a)`. -/
def Z (n : ℕ) (x : ℕ → ℝ) (a : ℝ) : ℝ := ∑ j ∈ range n, exp (x j - a)

/-- `Σ_{j<n} exp (e j - a) * (e j - k j)`. -/
def S (n : ℕ) (e k : ℕ → ℝ) (a : ℝ) : ℝ := ∑ j ∈ range n, exp (e j - a) * (e j - k j)

/-- The row's loss, written at shifts `a` (English) and `b` (Korean). -/
def rowLoss (n : ℕ) (e k : ℕ → ℝ) (a b : ℝ) : ℝ :=
  S n e k a / Z n e a - a - log (Z n e a) + b + log (Z n k b)

/-- The softmax probability of entry `j`, computed at shift `a`. -/
def prob (n : ℕ) (e : ℕ → ℝ) (a : ℝ) (j : ℕ) : ℝ := exp (e j - a) / Z n e a

/-- The log-softmax of entry `j`, computed at shift `b`. -/
def logProb (n : ℕ) (k : ℕ → ℝ) (b : ℝ) (j : ℕ) : ℝ := (k j - b) - log (Z n k b)

/-- The row's Kullback–Leibler sum as the reference spells it. -/
def refRow (n : ℕ) (e k : ℕ → ℝ) (a b : ℝ) : ℝ :=
  ∑ j ∈ range n, (prob n e a j * log (prob n e a j) - prob n e a j * logProb n k b j)

variable {n : ℕ} (e k x : ℕ → ℝ) (a a' b b' : ℝ)

theorem Z_zero : Z 0 x a = 0 := by simp [Z]

theorem S_zero : S 0 e k a = 0 := by simp [S]

theorem Z_pos (hn : 0 < n) : 0 < Z n x a := by
  unfold Z
  apply Finset.sum_pos
  · intro j _
    exact exp_pos _
  · exact ⟨0, Finset.mem_range.mpr hn⟩

theorem prob_pos (hn : 0 < n) (j : ℕ) : 0 < prob n e a j := by
  unfold prob
  exact div_pos (exp_pos _) (Z_pos e a hn)

/-- Moving the shift from `a` to `a'` multiplies every term by `exp (a - a')`. -/
theorem Z_shift : Z n x a * exp (a - a') = Z n x a' := by
  unfold Z
  rw [Finset.sum_mul]
  apply Finset.sum_congr rfl
  intro j _
  rw [← Real.exp_add]
  have h : x j - a + (a - a') = x j - a' := by ring
  rw [h]

theorem S_shift : S n e k a * exp (a - a') = S n e k a' := by
  unfold S
  rw [Finset.sum_mul]
  apply Finset.sum_congr rfl
  intro j _
  rw [mul_right_comm, ← Real.exp_add]
  have h : e j - a + (a - a') = e j - a' := by ring
  rw [h]

/-- Appending a block of `m` entries at the same shift. -/
theorem Z_block (n m : ℕ) : Z n x a + (∑ i : Fin m, exp (x (n + i) - a)) = Z (n + m) x a := by
  unfold Z
  rw [Finset.sum_range_add]
  congr 1
  exact Fin.sum_univ_eq_sum_range (fun i => exp (x (n + i) - a)) m

theorem S_block (n m : ℕ) :
    S n e k a + (∑ i : Fin m, exp (e (n + i) - a) * (e (n + i) - k (n + i))) = S (n + m) e k a := by
  unfold S
  rw [Finset.sum_range_add]
  congr 1
  exact Fin.sum_univ_eq_sum_range (fun i => exp (e (n + i) - a) * (e (n + i) - k (n + i))) m

/-- One chunk of four blocks of 500 entries: the sum so far moves to the new shift and the four blocks
    are added at it. -/
theorem Z_chunk (n : ℕ) :
    Z n x a * exp (a - a') + (∑ i : Fin 500, exp (x (n + i) - a')) + (∑ i : Fin 500, exp (x (n + 500 + i) - a'))
      + (∑ i : Fin 500, exp (x (n + 1000 + i) - a')) + (∑ i : Fin 500, exp (x (n + 1500 + i) - a'))
      = Z (n + 2000) x a' := by
  have h1 : n + 500 + 500 = n + 1000 := by omega
  have h2 : n + 1000 + 500 = n + 1500 := by omega
  have h3 : n + 1500 + 500 = n + 2000 := by omega
  rw [Z_shift x a a', Z_block x a' n 500, Z_block x a' (n + 500) 500, h1,
    Z_block x a' (n + 1000) 500, h2, Z_block x a' (n + 1500) 500, h3]

theorem S_chunk (n : ℕ) :
    S n e k a * exp (a - a')
      + (∑ i : Fin 500, exp (e (n + i) - a') * (e (n + i) - k (n + i)))
      + (∑ i : Fin 500, exp (e (n + 500 + i) - a') * (e (n + 500 + i) - k (n + 500 + i)))
      + (∑ i : Fin 500, exp (e (n + 1000 + i) - a') * (e (n + 1000 + i) - k (n + 1000 + i)))
      + (∑ i : Fin 500, exp (e (n + 1500 + i) - a') * (e (n + 1500 + i) - k (n + 1500 + i)))
      = S (n + 2000) e k a' := by
  have h1 : n + 500 + 500 = n + 1000 := by omega
  have h2 : n + 1000 + 500 = n + 1500 := by omega
  have h3 : n + 1500 + 500 = n + 2000 := by omega
  rw [S_shift e k a a', S_block e k a' n 500, S_block e k a' (n + 500) 500, h1,
    S_block e k a' (n + 1000) 500, h2, S_block e k a' (n + 1500) 500, h3]

/-- The quotient `S / Z` does not depend on the shift: both scale by the same positive factor. -/
theorem quot_shift : S n e k a / Z n e a = S n e k a' / Z n e a' := by
  rw [← Z_shift (n := n) e a' a, ← S_shift (n := n) e k a' a]
  exact mul_div_mul_right _ _ (exp_pos _).ne'

/-- `a + log (Z a)` is the log-sum-exp of the row, whatever the shift. -/
theorem log_Z_shift (hn : 0 < n) : a + log (Z n x a) = a' + log (Z n x a') := by
  rw [← Z_shift (n := n) x a' a, Real.log_mul (Z_pos x a' hn).ne' (exp_pos _).ne', Real.log_exp]
  ring

/-- The loss does not depend on the shifts. -/
theorem rowLoss_shift (hn : 0 < n) : rowLoss n e k a b = rowLoss n e k a' b' := by
  unfold rowLoss
  have h1 := quot_shift (n := n) e k a a'
  have h2 := log_Z_shift e a a' hn
  have h3 := log_Z_shift k b b' hn
  rw [h1]
  linarith

theorem log_prob (hn : 0 < n) (j : ℕ) : log (prob n e a j) = (e j - a) - log (Z n e a) := by
  unfold prob
  rw [Real.log_div (exp_pos _).ne' (Z_pos e a hn).ne', Real.log_exp]

/-- The probabilities of a row sum to one. -/
theorem sum_prob (hn : 0 < n) : ∑ j ∈ range n, prob n e a j = 1 := by
  unfold prob
  rw [← Finset.sum_div]
  exact div_self (Z_pos e a hn).ne'

theorem sum_prob_mul : ∑ j ∈ range n, prob n e a j * (e j - k j) = S n e k a / Z n e a := by
  unfold prob S
  rw [Finset.sum_div]
  apply Finset.sum_congr rfl
  intro j _
  ring

/-- The Kullback–Leibler sum at any shifts is the loss at those shifts. -/
theorem refRow_eq_rowLoss (hn : 0 < n) : refRow n e k a b = rowLoss n e k a b := by
  unfold refRow rowLoss logProb
  have hterm : ∀ j ∈ range n,
      prob n e a j * log (prob n e a j) - prob n e a j * ((k j - b) - log (Z n k b))
        = prob n e a j * (e j - k j)
          + prob n e a j * (- a - log (Z n e a) + b + log (Z n k b)) := by
    intro j _
    rw [log_prob e a hn j]
    ring
  have hconst : ∑ j ∈ range n, prob n e a j * (- a - log (Z n e a) + b + log (Z n k b))
      = - a - log (Z n e a) + b + log (Z n k b) := by
    rw [← Finset.sum_mul, sum_prob e a hn, one_mul]
  rw [Finset.sum_congr rfl hterm, Finset.sum_add_distrib, hconst, sum_prob_mul e k a]
  ring

end Cert.RowLoss

end
-- ==== Proof.Lane.lean ====
/-
  One lane (one batch row) of the kernel's step, on the extended reals.

  At a grid point the kernel holds, per lane, a running maximum `m`, a running sum of exponentials `z` and a
  running cross term `s`, and meets four blocks of 500 new entries. It forms the new maximum `m'` as the nested
  maximum of `m` and the four block maxima (each a fold of max from minus infinity), rescales `z` and `s` by
  `exp (m - m')`, and adds the four blocks' sums, each taken by a matrix product with a row of ones. After the last
  point the lane's loss is `s / z - m - log z + mk + log zk`.
  For real data all of these are real numbers: the new maximum is SOME real, the new sums are `RowLoss.Z` and
  `RowLoss.S` over 2000 more entries at the new shift, and the lane's loss is `RowLoss.rowLoss`.
-/
import Idealize.ShloMosaic.PureOps.Ideal
import proofs.«108505_g52810917872248_cont_9to1_m_94_21_alg».proof.Proof.RowLoss

noncomputable section

namespace Cert.Lane

open Idealize.ShloMosaic Cert.RowLoss

/-- A block's maximum down a lane: the fold of max from minus infinity. -/
def cmax (f : Fin 500 → EReal) : EReal := (Finset.univ : Finset (Fin 500)).fold max ⊥ f

/-- A block's sum down a lane, as a product with a row of ones spells it. -/
def csum (f : Fin 500 → EReal) : EReal := ∑ i : Fin 500, (1 : EReal) * f i

/-- The new running maximum. -/
def newMax (m : EReal) (b0 b1 b2 b3 : Fin 500 → EReal) : EReal :=
  max (max (max (max m (cmax b0)) (cmax b1)) (cmax b2)) (cmax b3)

/-- The new running sum of exponentials. -/
def newZ (z m m' : EReal) (b0 b1 b2 b3 : Fin 500 → EReal) : EReal :=
  z * Ideal.exp (m - m') + csum (fun i => Ideal.exp (b0 i - m')) + csum (fun i => Ideal.exp (b1 i - m'))
    + csum (fun i => Ideal.exp (b2 i - m')) + csum (fun i => Ideal.exp (b3 i - m'))

/-- The new running cross term. -/
def newS (s m m' : EReal) (e0 e1 e2 e3 k0 k1 k2 k3 : Fin 500 → EReal) : EReal :=
  s * Ideal.exp (m - m') + csum (fun i => Ideal.exp (e0 i - m') * (e0 i - k0 i))
    + csum (fun i => Ideal.exp (e1 i - m') * (e1 i - k1 i))
    + csum (fun i => Ideal.exp (e2 i - m') * (e2 i - k2 i))
    + csum (fun i => Ideal.exp (e3 i - m') * (e3 i - k3 i))

/-- The lane's loss from its five accumulators. -/
def laneLoss (s z m zk mk : EReal) : EReal := Ideal.div s z - m - Ideal.log z + mk + Ideal.log zk

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the maximum of two reals. -/
theorem coe_max (a b : ℝ) : ((max a b : ℝ) : EReal) = max (a : EReal) (b : EReal) :=
  EReal.coe_strictMono.monotone.map_max

/-- A fold of max from minus infinity over real entries is minus infinity or a real number. -/
theorem fold_max_real {ι : Type} (s : Finset ι) (f : ι → ℝ) :
    s.fold max (⊥ : EReal) (fun i => (f i : EReal)) = ⊥
      ∨ ∃ r : ℝ, s.fold max (⊥ : EReal) (fun i => (f i : EReal)) = (r : EReal) := by
  classical
  induction s using Finset.induction_on with
  | empty => exact Or.inl (Finset.fold_empty)
  | insert a s ha ih =>
    right
    rw [Finset.fold_insert ha]
    rcases ih with h | ⟨r, h⟩
    · exact ⟨f a, by rw [h, max_eq_left bot_le]⟩
    · exact ⟨max (f a) r, by rw [h, coe_max]⟩

/-- The maximum of a real number with minus infinity or a real number is a real number. -/
theorem max_real_of (M : ℝ) (y : EReal) (hy : y = ⊥ ∨ ∃ r : ℝ, y = (r : EReal)) :
    ∃ M' : ℝ, max (M : EReal) y = (M' : EReal) := by
  rcases hy with h | ⟨r, h⟩
  · exact ⟨M, by rw [h, max_eq_left bot_le]⟩
  · exact ⟨max M r, by rw [h, coe_max]⟩

/-- Over real entries the new maximum is some real number. -/
theorem newMax_real (M : ℝ) (b0 b1 b2 b3 : Fin 500 → ℝ) :
    ∃ M' : ℝ, newMax (M : EReal) (fun i => (b0 i : EReal)) (fun i => (b1 i : EReal)) (fun i => (b2 i : EReal))
      (fun i => (b3 i : EReal)) = (M' : EReal) := by
  unfold newMax cmax
  obtain ⟨M1, h1⟩ := max_real_of M _ (fold_max_real Finset.univ b0)
  obtain ⟨M2, h2⟩ := max_real_of M1 _ (fold_max_real Finset.univ b1)
  obtain ⟨M3, h3⟩ := max_real_of M2 _ (fold_max_real Finset.univ b2)
  obtain ⟨M4, h4⟩ := max_real_of M3 _ (fold_max_real Finset.univ b3)
  exact ⟨M4, by rw [h1, h2, h3, h4]⟩

/-- A block's sum over real entries is the coercion of the real sum. -/
theorem csum_coe (f : Fin 500 → ℝ) : csum (fun i => (f i : EReal)) = ((∑ i : Fin 500, f i : ℝ) : EReal) := by
  unfold csum
  simp only [one_mul]
  exact (coe_sum Finset.univ f).symm

/-- The step of the sum of exponentials, over the entries `n .. n + 2000` of a real row. -/
theorem step_Z (n : ℕ) (x : ℕ → ℝ) (M M' : ℝ) :
    newZ ((Z n x M : ℝ) : EReal) (M : EReal) (M' : EReal) (fun i => ((x (n + i) : ℝ) : EReal))
      (fun i => ((x (n + 500 + i) : ℝ) : EReal)) (fun i => ((x (n + 1000 + i) : ℝ) : EReal))
      (fun i => ((x (n + 1500 + i) : ℝ) : EReal)) = ((Z (n + 2000) x M' : ℝ) : EReal) := by
  unfold newZ
  simp only [← EReal.coe_sub, Ideal.exp_coe, ← EReal.coe_mul, csum_coe, ← EReal.coe_add]
  rw [Z_chunk x M M' n]

/-- The step of the cross term. -/
theorem step_S (n : ℕ) (e k : ℕ → ℝ) (M M' : ℝ) :
    newS ((S n e k M : ℝ) : EReal) (M : EReal) (M' : EReal)
      (fun i => ((e (n + i) : ℝ) : EReal)) (fun i => ((e (n + 500 + i) : ℝ) : EReal))
      (fun i => ((e (n + 1000 + i) : ℝ) : EReal)) (fun i => ((e (n + 1500 + i) : ℝ) : EReal))
      (fun i => ((k (n + i) : ℝ) : EReal)) (fun i => ((k (n + 500 + i) : ℝ) : EReal))
      (fun i => ((k (n + 1000 + i) : ℝ) : EReal)) (fun i => ((k (n + 1500 + i) : ℝ) : EReal))
      = ((S (n + 2000) e k M' : ℝ) : EReal) := by
  unfold newS
  simp only [← EReal.coe_sub, Ideal.exp_coe, ← EReal.coe_mul, csum_coe, ← EReal.coe_add]
  rw [S_chunk e k M M' n]

/-- After the last point the lane's loss is the row loss at the lane's two shifts. -/
theorem laneLoss_rowLoss {n : ℕ} (hn : 0 < n) (e k : ℕ → ℝ) (M Mk : ℝ) :
    laneLoss ((S n e k M : ℝ) : EReal) ((Z n e M : ℝ) : EReal) (M : EReal) ((Z n k Mk : ℝ) : EReal) (Mk : EReal)
      = ((rowLoss n e k M Mk : ℝ) : EReal) := by
  have hZ : 0 < Z n e M := Z_pos e M hn
  have hZk : 0 < Z n k Mk := Z_pos k Mk hn
  unfold laneLoss rowLoss
  rw [Ideal.div_coe hZ.ne', Ideal.log_coe, Ideal.log_coe, if_neg (not_le.mpr hZ), if_neg (not_le.mpr hZk)]
  rw [← EReal.coe_mul, ← EReal.coe_sub, ← EReal.coe_sub, ← EReal.coe_add, ← EReal.coe_add, mul_one_div]

end Cert.Lane

end
-- ==== Proof.Consts.lean ====
/-
  The float literals the two programs spell, as the extended reals their patterns denote: zero, one, 1024,
  minus infinity, and the kernel's large negative starting value for the running maxima, of which all that
  matters is that it is a real number.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- The starting value of the running maxima is a real number. -/
theorem ofBits_start : ∃ r : ℝ, Ideal.ofBits .f32 0xFF7FC99E#32 = (r : EReal) := by
  simp [Ideal.ofBits, Ideal.ieee, -EReal.coe_mul]
  exact ⟨_, (EReal.coe_neg _).symm⟩

end Cert.Consts

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.PayAt.lean ====
/-
  The kernel's new accumulators and its output block, read at one lane on the extended reals.

  Lane `r` of a sub-block of 500 rows starting at row `o` of a 2000-row block is the 500 entries `(o + i, r)`. The
  block maxima are folds of max from minus infinity down the lane, the block sums products with a row of ones, the
  broadcast of a `[1,1024]` row down 500 rows reads the row at the lane; so each new accumulator at lane `r` is the
  lane step of `Lane` applied to the old accumulators at `r` and the lane's entries, and every lane of the output block
  is the sum over the 1024 lanes of the lane losses.
-/
import proofs.«108505_g52810917872248_cont_9to1_m_94_21_alg».proof.Proof.Pieces
import proofs.«108505_g52810917872248_cont_9to1_m_94_21_alg».proof.Proof.Lane
import proofs.«108505_g52810917872248_cont_9to1_m_94_21_alg».proof.Proof.Consts
import proofs.«108505_g52810917872248_cont_9to1_m_94_21_alg».proof.Proof.LibDotIx2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.PayAt

open Cert.KernelIdeal Cert.KernelIdeal.Gen Cert.KernelIdeal.Pieces

/-- Lane `r` of the 500 rows from row `o` of a block. -/
def sub (x : Vec Ideal S2000x1024 .f32) (o : ℕ) (ho : o + 500 ≤ 2000) (r : Fin 1024) (i : Fin 500) : EReal :=
  x (ix2 (⟨o + i.val, by have := i.isLt; omega⟩ : Fin 2000) r)

variable (x0 x1 : Vec Ideal S2000x1024 .f32) (xs0 xs1 xs2 xs3 xs4 : Vec Ideal S1x1024 .f32) (r : Fin 1024)

/-- The printed dimension numbers are those of a plain 1 x 500 by 500 x 1024 product. -/
theorem plainDot : PlainDot (M := 1) (K := 500) (N := 1024) dot_S1x500_S500x1024_S1x1024_1_0_0_1_n_n where
  rank := by rw [DotDims.rank_contr]; rfl
  size := by
    have h := DotDims.size_contr dot_S1x500_S500x1024_S1x1024_1_0_0_1_n_n 0 (by decide)
    exact h
  l0 := fun j q => rfl
  l1 := fun j q => DotDims.lhsIdx_val_of_single _ rfl j q
  r0 := fun j q => DotDims.rhsIdx_val_of_single _ rfl j q
  r1 := fun j q => rfl

/-- A load of 500 rows from row `o`, read at row `i` and lane `r`, is the block at row `o + i`. -/
theorem ldAt (x : Vec Ideal S2000x1024 .f32) (o : ℕ) (ho : o + 500 ≤ 2000)
    (inb : ∀ a, (![o, 0] : Fin 2 → Nat) a + (![500, 1024] : Fin 2 → Nat) a ≤ S2000x1024.size a) (i : Fin 500) (r : Fin 1024) :
    View.ld x (Rect.unit ![o, 0] ![500, 1024] inb) (ix2 i r) = sub x o ho r i := by
  unfold sub
  show x _ = x _
  refine congrArg x (funext fun a => Fin.ext ?_)
  fin_cases a
  · show o + 1 * i.val = o + i.val
    omega
  · show 0 + 1 * r.val = r.val
    omega

/-- The reduced index of lane `r` with the row `i` put back on the first axis is `(i, r)`. -/
theorem lift_lane (h : S500x1024.Reduces [0] S1024) (r : Fin 1024) (i : Fin (S500x1024.size 0)) :
    h.lift (ix1 r) i = ix2 (⟨i.val, i.isLt⟩ : Fin 500) r := by
  funext c; apply Fin.ext
  fin_cases c <;> rfl

/-- The shape-cast lane maximum of a block, at lane `r`: the fold of max from minus infinity down the lane. -/
theorem cmaxAt (v : FVec Ideal S500x1024 .f32) (r : Fin 1024) :
    shapeCast S1x1024 (multiReduction (F := Ideal) .maximumf [0] S1024 v 0xFF800000#32 reduces_S500x1024_S1024 (.inl rfl) rfl)
        shapeCasts_S1024_S1x1024 (ix2 0 r)
      = Cert.Lane.cmax (fun i => v (ix2 i r)) := by
  refine (shapeCast_a_1a_apply _ _ 0 r).trans ?_
  refine (Ideal.multiReduction_maximumf_single v (0xFF800000#32 : BitVec 32) reduces_S500x1024_S1024 (.inl rfl) rfl (ix1 r)).trans ?_
  have hl : (v ∘ reduces_S500x1024_S1024.lift (ix1 r)) = fun i : Fin 500 => v (ix2 i r) :=
    funext fun i => congrArg v (lift_lane reduces_S500x1024_S1024 r i)
  have hb : (FloatOps.ofBits (F := Ideal) .f32 0xFF800000#32 : EReal) = ⊥ := Cert.Consts.ofBits_negInf
  unfold Cert.Lane.cmax
  rw [hb]
  exact congrArg (fun f => Finset.fold max (⊥ : EReal) f (Finset.univ : Finset (Fin 500))) hl

/-- The product of the row of ones with a block into zeros, at lane `r`: the sum down the lane. -/
theorem csumAt (v : FVec Ideal S500x1024 .f32) (r : Fin 1024) :
    matmul (F := Ideal) dot_S1x500_S500x1024_S1x1024_1_0_0_1_n_n none (k0_pay9 (F := Ideal)) v
        (constant (F := Ideal) S1x1024 .f32 0x00000000#32) (ix2 0 r)
      = Cert.Lane.csum (fun i => v (ix2 i r)) := by
  refine (matmul_zero_ix2_any plainDot none (k0_pay9 (F := Ideal)) v 0 r).trans ?_
  unfold Cert.Lane.csum
  refine Finset.sum_congr rfl fun k _ => ?_
  have h1 : (k0_pay9 (F := Ideal) (ix2 0 k) : EReal) = 1 := Cert.Consts.ofBits_one
  rw [h1]

/-- The exponentials of a block shifted by a row, at `(i, r)`. -/
theorem expShiftAt (v : FVec Ideal S500x1024 .f32) (m : FVec Ideal S1x1024 .f32) (i : Fin 500) (r : Fin 1024) :
    exp (subf v (broadcastTo S500x1024 m broadcasts_S1x1024_S500x1024)) (ix2 i r)
      = Ideal.exp (v (ix2 i r) - m (ix2 0 r)) := by
  show Ideal.exp (v (ix2 i r) - broadcastTo S500x1024 m broadcasts_S1x1024_S500x1024 (ix2 i r)) = _
  rw [broadcastTo_1b_ab_apply]

/-- The four-block running maximum of raw loads, at lane `r`. -/
theorem pay18At (v4 v6 v8 v10 : Vec Ideal S500x1024 .f32) (v20 : Vec Ideal S1x1024 .f32) (r : Fin 1024) :
    k0_pay18 (F := Ideal) v4 v6 v8 v10 v20 (ix2 0 r)
      = Cert.Lane.newMax (v20 (ix2 0 r)) (fun i => v4 (ix2 i r)) (fun i => v6 (ix2 i r)) (fun i => v8 (ix2 i r))
          (fun i => v10 (ix2 i r)) := by
  unfold k0_pay18 k0_pay10 k0_pay11 k0_pay12 k0_pay13 Cert.Lane.newMax
  simp only [shapeCast_self]
  show max (max (max (max (v20 (ix2 0 r)) _) _) _) _ = _
  rw [cmaxAt v4 r, cmaxAt v6 r, cmaxAt v8 r, cmaxAt v10 r]

/-- The four-block running maximum of blocks already cast, at lane `r`. -/
theorem pay28At (v13 v15 v17 v19 : FVec Ideal S500x1024 .f32) (v84 : Vec Ideal S1x1024 .f32) (r : Fin 1024) :
    k0_pay28 (F := Ideal) v13 v15 v17 v19 v84 (ix2 0 r)
      = Cert.Lane.newMax (v84 (ix2 0 r)) (fun i => v13 (ix2 i r)) (fun i => v15 (ix2 i r)) (fun i => v17 (ix2 i r))
          (fun i => v19 (ix2 i r)) := by
  unfold k0_pay28 Cert.Lane.newMax
  show max (max (max (max (v84 (ix2 0 r)) _) _) _) _ = _
  rw [cmaxAt v13 r, cmaxAt v15 r, cmaxAt v17 r, cmaxAt v19 r]

/-- A cast load of 500 rows from row `o`, down lane `r`, is the lane's entries. -/
theorem castLdLane (x : Vec Ideal S2000x1024 .f32) (o : ℕ) (ho : o + 500 ≤ 2000)
    (inb : ∀ a, (![o, 0] : Fin 2 → Nat) a + (![500, 1024] : Fin 2 → Nat) a ≤ S2000x1024.size a) (r : Fin 1024) :
    (fun i : Fin 500 => shapeCast S500x1024 (View.ld x (Rect.unit ![o, 0] ![500, 1024] inb)) shapeCasts_S500x1024_S500x1024 (ix2 i r))
      = sub x o ho r := by
  funext i
  exact (congrFun (shapeCast_self (s := S500x1024) _ shapeCasts_S500x1024_S500x1024) (ix2 i r)).trans (ldAt x o ho inb i r)

theorem ldLane (x : Vec Ideal S2000x1024 .f32) (o : ℕ) (ho : o + 500 ≤ 2000)
    (inb : ∀ a, (![o, 0] : Fin 2 → Nat) a + (![500, 1024] : Fin 2 → Nat) a ≤ S2000x1024.size a) (r : Fin 1024) :
    (fun i : Fin 500 => View.ld x (Rect.unit ![o, 0] ![500, 1024] inb) (ix2 i r)) = sub x o ho r :=
  funext fun i => ldAt x o ho inb i r

/-- The new sum of exponentials from cast blocks, at lane `r`. -/
theorem pay25At (v5 v7 v9 v11 : FVec Ideal S500x1024 .f32) (v20 : Vec Ideal S1x1024 .f32) (v32 : FVec Ideal S1x1024 .f32)
    (v35 : Vec Ideal S1x1024 .f32) (r : Fin 1024) :
    k0_pay25 (F := Ideal) k0_pay9 v5 v7 v9 v11 v20 v32 v35 (ix2 0 r)
      = Cert.Lane.newZ (v35 (ix2 0 r)) (v20 (ix2 0 r)) (v32 (ix2 0 r)) (fun i => v5 (ix2 i r)) (fun i => v7 (ix2 i r))
          (fun i => v9 (ix2 i r)) (fun i => v11 (ix2 i r)) := by
  unfold k0_pay25 k0_pay19 k0_pay20 k0_pay21 k0_pay22 k0_pay23 Cert.Lane.newZ
  simp only [shapeCast_self]
  show v35 (ix2 0 r) * Ideal.exp (v20 (ix2 0 r) - v32 (ix2 0 r)) + _ + _ + _ + _ = _
  rw [csumAt, csumAt, csumAt, csumAt]
  simp only [expShiftAt]

/-- The new cross term from cast blocks, at lane `r`. -/
theorem pay24At (v5 v7 v9 v11 v13 v15 v17 v19 : FVec Ideal S500x1024 .f32) (v20 : Vec Ideal S1x1024 .f32)
    (v32 : FVec Ideal S1x1024 .f32) (v37 : Vec Ideal S1x1024 .f32) (r : Fin 1024) :
    k0_pay24 (F := Ideal) k0_pay9 v5 v7 v9 v11 v13 v15 v17 v19 v20 v32 v37 (ix2 0 r)
      = Cert.Lane.newS (v37 (ix2 0 r)) (v20 (ix2 0 r)) (v32 (ix2 0 r)) (fun i => v5 (ix2 i r)) (fun i => v7 (ix2 i r))
          (fun i => v9 (ix2 i r)) (fun i => v11 (ix2 i r)) (fun i => v13 (ix2 i r)) (fun i => v15 (ix2 i r))
          (fun i => v17 (ix2 i r)) (fun i => v19 (ix2 i r)) := by
  unfold k0_pay24 k0_pay19 k0_pay20 k0_pay21 k0_pay22 k0_pay23 Cert.Lane.newS
  show v37 (ix2 0 r) * Ideal.exp (v20 (ix2 0 r) - v32 (ix2 0 r)) + _ + _ + _ + _ = _
  rw [csumAt, csumAt, csumAt, csumAt]
  simp only [mulf_apply, subf_apply, expShiftAt]

/-- The new sum of exponentials kept as two parts (the old sum with the first three blocks, and the fourth block), added, at lane `r`. -/
theorem pay1At (v13 v15 v17 v19 : FVec Ideal S500x1024 .f32) (v84 v99 : Vec Ideal S1x1024 .f32) (r : Fin 1024) :
    k0_pay1 (F := Ideal) (k0_pay29 k0_pay9 v13 v15 v17 v19 v84 v99) (k0_pay30 k0_pay9 v13 v15 v17 v19 v84) (ix2 0 r)
      = Cert.Lane.newZ (v99 (ix2 0 r)) (v84 (ix2 0 r)) (k0_pay28 (F := Ideal) v13 v15 v17 v19 v84 (ix2 0 r))
          (fun i => v13 (ix2 i r)) (fun i => v15 (ix2 i r)) (fun i => v17 (ix2 i r)) (fun i => v19 (ix2 i r)) := by
  unfold k0_pay1 k0_pay29 k0_pay30 Cert.Lane.newZ
  simp only [shapeCast_self]
  show v99 (ix2 0 r) * Ideal.exp (v84 (ix2 0 r) - k0_pay28 (F := Ideal) v13 v15 v17 v19 v84 (ix2 0 r)) + _ + _ + _ + _ = _
  rw [csumAt, csumAt, csumAt, csumAt]
  simp only [expShiftAt]

/-- The indices of a `[1,1,1024]` array are its 1024 lanes. -/
def laneEquiv : Fin 1024 ≃ S1x1x1024.Idx where
  toFun q := ix3 0 0 q
  invFun j := ⟨(j 2).val, (j 2).isLt⟩
  left_inv q := rfl
  right_inv j := by
    funext a
    apply Fin.ext
    match a with
    | ⟨0, h0⟩ =>
      have h : (j ⟨0, h0⟩).val < 1 := (j ⟨0, h0⟩).isLt
      show (0 : ℕ) = (j ⟨0, h0⟩).val
      omega
    | ⟨1, h1⟩ =>
      have h : (j ⟨1, h1⟩).val < 1 := (j ⟨1, h1⟩).isLt
      show (0 : ℕ) = (j ⟨1, h1⟩).val
      omega
    | ⟨2, h2⟩ => rfl

/-- A sum over every index of a `[1,1,1024]` array is the sum over its lanes. -/
theorem sum_lanes (f : S1x1x1024.Idx → EReal) : ∑ i, f i = ∑ q : Fin 1024, f (ix3 0 0 q) :=
  (Equiv.sum_comp laneEquiv f).symm

/-- The sum over both axes of a row cast to `[1,1,1024]`, taken out and spread over the output block: at every lane of
    the block it is the sum over the row's lanes. -/
theorem totalAt (w : FVec Ideal S1x1024 .f32) (l : Fin 128) :
    broadcast S1x1x128 (extractAt ![0, 0, 0] (shapeCast S1x1x1 (multiReduction (F := Ideal) .add [1, 2] S1
        (shapeCast S1x1x1024 w shapeCasts_S1x1024_S1x1x1024) 0x00000000#32 reduces_S1x1x1024_S1 (.inl rfl) rfl)
        shapeCasts_S1_S1x1x1) inpos_S1x1x1_p0_0_0) (ix3 0 0 l)
      = ∑ q : Fin 1024, w (ix2 0 q) := by
  show shapeCast S1x1x1 (multiReduction (F := Ideal) .add [1, 2] S1
        (shapeCast S1x1x1024 w shapeCasts_S1x1024_S1x1x1024) 0x00000000#32 reduces_S1x1x1024_S1 (.inl rfl) rfl)
        shapeCasts_S1_S1x1x1 (fun a => ⟨(![0, 0, 0] : Fin 3 → ℕ) a, inpos_S1x1x1_p0_0_0 a⟩) = _
  refine (shapeCast_apply _ shapeCasts_S1_S1x1x1 _ (ix1 (0 : Fin 1)) ?_).trans ?_
  · rw [Shape.rowMajor_val_one, Shape.rowMajor_val_three]
    rfl
  refine (Ideal.multiReduction_add_total (shapeCast S1x1x1024 w shapeCasts_S1x1024_S1x1x1024) (0x00000000#32 : BitVec 32)
    reduces_S1x1x1024_S1 (fun b => ?_) (.inl rfl) rfl (ix1 0)).trans ?_
  · fin_cases b; rfl
  refine (sum_lanes _).trans ?_
  refine Finset.sum_congr rfl fun q _ => ?_
  exact shapeCast_ab_1ab_apply w shapeCasts_S1x1024_S1x1x1024 0 0 q

/-- The output block from the five accumulators: at every lane of the block, the sum over the lanes of the lane losses. -/
theorem pay3At (v130 v131 v133 v138 v140 : Vec Ideal S1x1024 .f32) (l : Fin 128) :
    k0_pay3 (F := Ideal) v130 v131 v133 v131 v138 v140 (ix3 0 0 l)
      = ∑ q : Fin 1024, Cert.Lane.laneLoss (v130 (ix2 0 q)) (v131 (ix2 0 q)) (v133 (ix2 0 q)) (v140 (ix2 0 q)) (v138 (ix2 0 q)) := by
  unfold k0_pay3
  refine (totalAt _ l).trans ?_
  exact Finset.sum_congr rfl fun q _ => rfl

theorem newMe_lane :
    newMe (F := Ideal) x1 xs0 (ix2 0 r) = Cert.Lane.newMax (xs0 (ix2 0 r)) (sub x1 0 (by omega) r) (sub x1 500 (by omega) r) (sub x1 1000 (by omega) r) (sub x1 1500 (by omega) r) := by
  unfold newMe
  refine (pay18At _ _ _ _ xs0 r).trans ?_
  rw [ldLane x1 0 (by omega) _ r, ldLane x1 500 (by omega) _ r, ldLane x1 1000 (by omega) _ r, ldLane x1 1500 (by omega) _ r]

theorem newMk_lane :
    newMk (F := Ideal) x0 xs3 (ix2 0 r) = Cert.Lane.newMax (xs3 (ix2 0 r)) (sub x0 0 (by omega) r) (sub x0 500 (by omega) r) (sub x0 1000 (by omega) r) (sub x0 1500 (by omega) r) := by
  unfold newMk k0_pay14 k0_pay15 k0_pay16 k0_pay17
  refine (pay28At _ _ _ _ xs3 r).trans ?_
  rw [castLdLane x0 0 (by omega) _ r, castLdLane x0 500 (by omega) _ r, castLdLane x0 1000 (by omega) _ r, castLdLane x0 1500 (by omega) _ r]

theorem newZe_lane :
    newZe (F := Ideal) x1 xs0 xs1 (ix2 0 r)
      = Cert.Lane.newZ (xs1 (ix2 0 r)) (xs0 (ix2 0 r)) (newMe (F := Ideal) x1 xs0 (ix2 0 r)) (sub x1 0 (by omega) r) (sub x1 500 (by omega) r) (sub x1 1000 (by omega) r) (sub x1 1500 (by omega) r) := by
  unfold newZe k0_pay10 k0_pay11 k0_pay12 k0_pay13
  refine (pay25At _ _ _ _ xs0 (newMe (F := Ideal) x1 xs0) xs1 r).trans ?_
  rw [castLdLane x1 0 (by omega) _ r, castLdLane x1 500 (by omega) _ r, castLdLane x1 1000 (by omega) _ r, castLdLane x1 1500 (by omega) _ r]

theorem newZk_lane :
    newZk (F := Ideal) x0 xs3 xs4 (ix2 0 r)
      = Cert.Lane.newZ (xs4 (ix2 0 r)) (xs3 (ix2 0 r)) (newMk (F := Ideal) x0 xs3 (ix2 0 r)) (sub x0 0 (by omega) r) (sub x0 500 (by omega) r) (sub x0 1000 (by omega) r) (sub x0 1500 (by omega) r) := by
  unfold newZk newMk k0_pay14 k0_pay15 k0_pay16 k0_pay17
  refine (pay1At _ _ _ _ xs3 xs4 r).trans ?_
  rw [castLdLane x0 0 (by omega) _ r, castLdLane x0 500 (by omega) _ r, castLdLane x0 1000 (by omega) _ r, castLdLane x0 1500 (by omega) _ r]

theorem newS_lane :
    newS (F := Ideal) x0 x1 xs0 xs2 (ix2 0 r)
      = Cert.Lane.newS (xs2 (ix2 0 r)) (xs0 (ix2 0 r)) (newMe (F := Ideal) x1 xs0 (ix2 0 r)) (sub x1 0 (by omega) r) (sub x1 500 (by omega) r) (sub x1 1000 (by omega) r) (sub x1 1500 (by omega) r)
          (sub x0 0 (by omega) r) (sub x0 500 (by omega) r) (sub x0 1000 (by omega) r) (sub x0 1500 (by omega) r) := by
  unfold newS k0_pay10 k0_pay11 k0_pay12 k0_pay13 k0_pay14 k0_pay15 k0_pay16 k0_pay17
  refine (pay24At _ _ _ _ _ _ _ _ xs0 (newMe (F := Ideal) x1 xs0) xs2 r).trans ?_
  rw [castLdLane x1 0 (by omega) _ r, castLdLane x1 500 (by omega) _ r, castLdLane x1 1000 (by omega) _ r, castLdLane x1 1500 (by omega) _ r,
    castLdLane x0 0 (by omega) _ r, castLdLane x0 500 (by omega) _ r, castLdLane x0 1000 (by omega) _ r, castLdLane x0 1500 (by omega) _ r]

theorem outBlock_lane (l : Fin 128) :
    outBlock (F := Ideal) x0 x1 xs0 xs1 xs2 xs3 xs4 (ix3 0 0 l)
      = ∑ q : Fin 1024, Cert.Lane.laneLoss (newS (F := Ideal) x0 x1 xs0 xs2 (ix2 0 q)) (newZe (F := Ideal) x1 xs0 xs1 (ix2 0 q))
          (newMe (F := Ideal) x1 xs0 (ix2 0 q)) (newZk (F := Ideal) x0 xs3 xs4 (ix2 0 q)) (newMk (F := Ideal) x0 xs3 (ix2 0 q)) := by
  unfold outBlock k0_pay26 k0_pay27 k0_pay2
  simp only [shapeCast_self]
  exact pay3At _ _ _ _ _ l

end Cert.KernelIdeal.PayAt

end
-- ==== Proof.LossSpec.lean ====
/-
  The result both programs compute, as one term of the two argument arrays.

  Row `r` of an array of extended reals is read as a sequence of real numbers (`rowOf`; under the
  precondition every entry is a real, `RealArr`). The loss is the sum over the 1024 rows of the row loss
  of `RowLoss`, at shifts `0` and `0` (any shifts give the same number), divided by 1024.
-/
import Idealize.ShloMosaic.PureOps.Ideal
import Idealize.ShloMosaic.Lib.ValueIdx
import proofs.«108505_g52810917872248_cont_9to1_m_94_21_alg».proof.Proof.RowLoss

noncomputable section

namespace Cert.LossSpec

open Idealize.ShloMosaic Idealize.ShloMosaic.ValueIdx

/-- The shape of both arguments. -/
abbrev SArr : Shape := ⟨2, ![1024, 100000]⟩

/-- Row `r` of `A` as a sequence of reals (zero beyond the row's 100000 entries). -/
def rowOf (A : SArr.Idx → EReal) (r : Fin 1024) (j : ℕ) : ℝ :=
  if h : j < 100000 then (A (ix2 r ⟨j, h⟩)).toReal else 0

/-- Every entry is a real number. -/
def RealArr (A : SArr.Idx → EReal) : Prop := ∀ i, A i = ((A i).toReal : EReal)

theorem RealArr.at {A : SArr.Idx → EReal} (h : RealArr A) (r : Fin 1024) (j : Fin 100000) :
    A (ix2 r j) = ((rowOf A r j.val : ℝ) : EReal) := by
  rw [rowOf, dif_pos j.isLt]; exact h _

/-- The loss of Korean logits `K` against English logits `E`. -/
def loss (K E : SArr.Idx → EReal) : EReal :=
  (((∑ r : Fin 1024, Cert.RowLoss.rowLoss 100000 (rowOf E r) (rowOf K r) 0 0) / 1024 : ℝ) : EReal)

end Cert.LossSpec

end
-- ==== Proof.Inv.lean ====
/-
  One lane of one grid point on real data, the blocks the points read, and what each point leaves.

  The lane step: if lane `r` of a point's two blocks holds 2000 consecutive entries of the real rows `e`, `k` and
  the old accumulators hold a shift, `Z`, `S`, a shift and `Z` of the entries before them, the new accumulators hold the
  same of 2000 more entries, at some new shifts. Which reals the shifts are is never needed.
  The blocks: the kernel is handed the transposed arrays, so entry `(p, r)` of the block at point `t` is entry
  `2000 t + p` of row `r` of the argument array.
  What a point leaves: at the first point the new accumulators over the starting values, at every later point the new
  accumulators over what the point before left, and at the last point also the output block.
-/
import proofs.«108505_g52810917872248_cont_9to1_m_94_21_alg».proof.Proof.PieceEq
import proofs.«108505_g52810917872248_cont_9to1_m_94_21_alg».proof.Proof.PayAt
import proofs.«108505_g52810917872248_cont_9to1_m_94_21_alg».proof.Proof.LossSpec
import proofs.«108505_g52810917872248_cont_9to1_m_94_21_alg».proof.Proof.Consts
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Inv

open Cert.KernelIdeal Cert.KernelIdeal.Gen Cert.KernelIdeal.Pieces Cert.KernelIdeal.PayAt Cert.RowLoss Cert.LossSpec

/-! ## One lane, one point -/

set_option maxHeartbeats 4000000 in
/-- The lane step on real data: if lane `r` of the two blocks holds entries `n .. n + 1999` of the real rows `e`, `k` and
    the old accumulators hold a shift, `Z`, `S`, a shift and `Z` of the first `n` entries, the new ones hold the same of the
    first `n + 2000`, at some new shifts. -/
theorem lane_step (x0 x1 : Vec Ideal S2000x1024 .f32) (xs0 xs1 xs2 xs3 xs4 : Vec Ideal S1x1024 .f32) (r : Fin 1024)
    (e k : ℕ → ℝ) (n : ℕ)
    (h1 : ∀ p : Fin 2000, x1 (ix2 p r) = ((e (n + p.val) : ℝ) : EReal))
    (h0 : ∀ p : Fin 2000, x0 (ix2 p r) = ((k (n + p.val) : ℝ) : EReal))
    (M Mk : ℝ) (hm : xs0 (ix2 0 r) = (M : EReal)) (hz : xs1 (ix2 0 r) = ((Z n e M : ℝ) : EReal))
    (hs : xs2 (ix2 0 r) = ((S n e k M : ℝ) : EReal)) (hmk : xs3 (ix2 0 r) = (Mk : EReal))
    (hzk : xs4 (ix2 0 r) = ((Z n k Mk : ℝ) : EReal)) :
    ∃ M' Mk' : ℝ, newMe (F := Ideal) x1 xs0 (ix2 0 r) = (M' : EReal)
      ∧ newZe (F := Ideal) x1 xs0 xs1 (ix2 0 r) = ((Z (n + 2000) e M' : ℝ) : EReal)
      ∧ newS (F := Ideal) x0 x1 xs0 xs2 (ix2 0 r) = ((S (n + 2000) e k M' : ℝ) : EReal)
      ∧ newMk (F := Ideal) x0 xs3 (ix2 0 r) = (Mk' : EReal)
      ∧ newZk (F := Ideal) x0 xs3 xs4 (ix2 0 r) = ((Z (n + 2000) k Mk' : ℝ) : EReal) := by
  have e0 : sub x1 0 (by omega) r = fun i : Fin 500 => ((e (n + i.val) : ℝ) : EReal) := funext fun i =>
    (h1 _).trans (by show ((e (n + (0 + i.val)) : ℝ) : EReal) = _; rw [Nat.zero_add])
  have e1 : sub x1 500 (by omega) r = fun i : Fin 500 => ((e (n + 500 + i.val) : ℝ) : EReal) := funext fun i =>
    (h1 _).trans (by show ((e (n + (500 + i.val)) : ℝ) : EReal) = _; rw [Nat.add_assoc])
  have e2 : sub x1 1000 (by omega) r = fun i : Fin 500 => ((e (n + 1000 + i.val) : ℝ) : EReal) := funext fun i =>
    (h1 _).trans (by show ((e (n + (1000 + i.val)) : ℝ) : EReal) = _; rw [Nat.add_assoc])
  have e3 : sub x1 1500 (by omega) r = fun i : Fin 500 => ((e (n + 1500 + i.val) : ℝ) : EReal) := funext fun i =>
    (h1 _).trans (by show ((e (n + (1500 + i.val)) : ℝ) : EReal) = _; rw [Nat.add_assoc])
  have k0 : sub x0 0 (by omega) r = fun i : Fin 500 => ((k (n + i.val) : ℝ) : EReal) := funext fun i =>
    (h0 _).trans (by show ((k (n + (0 + i.val)) : ℝ) : EReal) = _; rw [Nat.zero_add])
  have k1 : sub x0 500 (by omega) r = fun i : Fin 500 => ((k (n + 500 + i.val) : ℝ) : EReal) := funext fun i =>
    (h0 _).trans (by show ((k (n + (500 + i.val)) : ℝ) : EReal) = _; rw [Nat.add_assoc])
  have k2 : sub x0 1000 (by omega) r = fun i : Fin 500 => ((k (n + 1000 + i.val) : ℝ) : EReal) := funext fun i =>
    (h0 _).trans (by show ((k (n + (1000 + i.val)) : ℝ) : EReal) = _; rw [Nat.add_assoc])
  have k3 : sub x0 1500 (by omega) r = fun i : Fin 500 => ((k (n + 1500 + i.val) : ℝ) : EReal) := funext fun i =>
    (h0 _).trans (by show ((k (n + (1500 + i.val)) : ℝ) : EReal) = _; rw [Nat.add_assoc])
  obtain ⟨M', hM'⟩ := Cert.Lane.newMax_real M (fun i : Fin 500 => e (n + i.val)) (fun i : Fin 500 => e (n + 500 + i.val)) (fun i : Fin 500 => e (n + 1000 + i.val)) (fun i : Fin 500 => e (n + 1500 + i.val))
  obtain ⟨Mk', hMk'⟩ := Cert.Lane.newMax_real Mk (fun i : Fin 500 => k (n + i.val)) (fun i : Fin 500 => k (n + 500 + i.val)) (fun i : Fin 500 => k (n + 1000 + i.val)) (fun i : Fin 500 => k (n + 1500 + i.val))
  have hme : newMe (F := Ideal) x1 xs0 (ix2 0 r) = (M' : EReal) := by
    rw [newMe_lane, e0, e1, e2, e3, hm]; exact hM'
  have hmk' : newMk (F := Ideal) x0 xs3 (ix2 0 r) = (Mk' : EReal) := by
    rw [newMk_lane, k0, k1, k2, k3, hmk]; exact hMk'
  refine ⟨M', Mk', hme, ?_, ?_, hmk', ?_⟩
  · rw [newZe_lane, hme, e0, e1, e2, e3, hz, hm]; exact Cert.Lane.step_Z n e M M'
  · rw [newS_lane, hme, e0, e1, e2, e3, k0, k1, k2, k3, hs, hm]; exact Cert.Lane.step_S n e k M M'
  · rw [newZk_lane, hmk', k0, k1, k2, k3, hzk, hmk]; exact Cert.Lane.step_Z n k Mk Mk'

/-! ## The blocks -/

variable (m : (ℓ : Loc nD τ sig) → Buf (Elt Ideal) ℓ) (c : Dev nD)

/-- The Korean logits (the first argument) and the English logits (the second). -/
abbrev KArr : SArr.Idx → EReal := m ((c : Thread nD τ).loc main_arg0)
abbrev EArr : SArr.Idx → EReal := m ((c : Thread nD τ).loc main_arg1)

/-- The region finds the transposed arrays. -/
theorem V_v0 : (V m c main_v0 : S100000x1024.Idx → EReal)
    = transpose S100000x1024 [1, 0] (KArr m c) transposes_S1024x100000_S100000x1024_1_0 := by
  show StableHlo.after hostOps0 (fun b => m (c, b)) (Proc.devRef .tc main_v0) = _
  after_results

theorem V_v1 : (V m c main_v1 : S100000x1024.Idx → EReal)
    = transpose S100000x1024 [1, 0] (EArr m c) transposes_S1024x100000_S100000x1024_1_0 := by
  show StableHlo.after hostOps0 (fun b => m (c, b)) (Proc.devRef .tc main_v1) = _
  after_results

/-- The two input windows step down the rows, 2000 at a time. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

theorem row_lt (t : Fin cfg0.N) (p : Fin 2000) : 2000 * t.val + p.val < 100000 := by
  have := t.isLt; have hN : cfg0.N = 50 := N_0; have := p.isLt; omega

/-- Entry `(p, r)` of the Korean block at point `t` is entry `2000 t + p` of row `r`. -/
theorem iblk0_at (t : Fin cfg0.N) (p : Fin 2000) (r : Fin 1024) :
    (iblk m c 0 t : Vec Ideal S2000x1024 .f32) (ix2 p r) = KArr m c (ix2 r ⟨2000 * t.val + p.val, row_lt t p⟩) := by
  unfold iblk
  rw [View.read_apply]
  show V m c main_v0 _ = _
  rw [V_v0 m c, ← transpose_ix2_apply (KArr m c) transposes_S1024x100000_S100000x1024_1_0 ⟨2000 * t.val + p.val, row_lt t p⟩ r]
  congr 1
  funext a
  apply Fin.ext
  match a with
  | ⟨0, _⟩ => show win0_0.index t 0 * 2000 + 1 * p.val = 2000 * t.val + p.val; rw [(idx0 t).1]; omega
  | ⟨1, _⟩ => show win0_0.index t 1 * 1024 + 1 * r.val = r.val; rw [(idx0 t).2]; omega

theorem iblk1_at (t : Fin cfg0.N) (p : Fin 2000) (r : Fin 1024) :
    (iblk m c 1 t : Vec Ideal S2000x1024 .f32) (ix2 p r) = EArr m c (ix2 r ⟨2000 * t.val + p.val, row_lt t p⟩) := by
  unfold iblk
  rw [View.read_apply]
  show V m c main_v1 _ = _
  rw [V_v1 m c, ← transpose_ix2_apply (EArr m c) transposes_S1024x100000_S100000x1024_1_0 ⟨2000 * t.val + p.val, row_lt t p⟩ r]
  congr 1
  funext a
  apply Fin.ext
  match a with
  | ⟨0, _⟩ => show win0_1.index t 0 * 2000 + 1 * p.val = 2000 * t.val + p.val; rw [(idx1 t).1]; omega
  | ⟨1, _⟩ => show win0_1.index t 1 * 1024 + 1 * r.val = r.val; rw [(idx1 t).2]; omega

theorem blk0_real (hK : RealArr (KArr m c)) (t : Fin cfg0.N) (r : Fin 1024) (p : Fin 2000) :
    (iblk m c 0 t : Vec Ideal S2000x1024 .f32) (ix2 p r) = ((rowOf (KArr m c) r (2000 * t.val + p.val) : ℝ) : EReal) := by
  rw [iblk0_at]; exact hK.at r ⟨_, row_lt t p⟩

theorem blk1_real (hE : RealArr (EArr m c)) (t : Fin cfg0.N) (r : Fin 1024) (p : Fin 2000) :
    (iblk m c 1 t : Vec Ideal S2000x1024 .f32) (ix2 p r) = ((rowOf (EArr m c) r (2000 * t.val + p.val) : ℝ) : EReal) := by
  rw [iblk1_at]; exact hE.at r ⟨_, row_lt t p⟩

/-! ## The accumulators after each point -/

theorem pay27 (v : FVec Ideal S1x1024 .f32) : k0_pay27 v = v := by unfold k0_pay27; exact shapeCast_self _ _
theorem pay26 (v : FVec Ideal S1x1024 .f32) : k0_pay26 v = v := by unfold k0_pay26; exact shapeCast_self _ _
theorem pay2 (v : FVec Ideal S1x1024 .f32) : k0_pay2 v = v := by unfold k0_pay2; exact shapeCast_self _ _

/-- The starting values, at a lane: the large negative real for the two maxima, zero for the three sums. -/
theorem pay4_at (r : Fin 1024) : k0_pay4 (F := Ideal) (ix2 0 r) = Ideal.ofBits .f32 0xFF7FC99E#32 := by
  unfold k0_pay4; rw [shapeCast_self]; rfl
theorem pay7_at (r : Fin 1024) : k0_pay7 (F := Ideal) (ix2 0 r) = Ideal.ofBits .f32 0xFF7FC99E#32 := by
  unfold k0_pay7; rw [shapeCast_self]; rfl
theorem pay5_at (r : Fin 1024) : k0_pay5 (F := Ideal) (ix2 0 r) = 0 := by
  unfold k0_pay5; rw [shapeCast_self]; exact Cert.Consts.ofBits_zero
theorem pay6_at (r : Fin 1024) : k0_pay6 (F := Ideal) (ix2 0 r) = 0 := by
  unfold k0_pay6; rw [shapeCast_self]; exact Cert.Consts.ofBits_zero
theorem pay8_at (r : Fin 1024) : k0_pay8 (F := Ideal) (ix2 0 r) = 0 := by
  unfold k0_pay8; rw [shapeCast_self]; exact Cert.Consts.ofBits_zero

/-- After the first point: the new accumulators over the starting values. -/
theorem compsA (t : Fin cfg0.N) (h0 : t.val % 50 = 0) (h1 : ¬t.val % 50 = 49) :
    (outsAt0 m c t.val t.isLt).2.1 = newMe (F := Ideal) (iblk m c 1 t) (k0_pay4 (F := Ideal))
    ∧ (outsAt0 m c t.val t.isLt).2.2.1 = newZe (F := Ideal) (iblk m c 1 t) (k0_pay4 (F := Ideal)) (k0_pay5 (F := Ideal))
    ∧ (outsAt0 m c t.val t.isLt).2.2.2.1 = newS (F := Ideal) (iblk m c 0 t) (iblk m c 1 t) (k0_pay4 (F := Ideal)) (k0_pay6 (F := Ideal))
    ∧ (outsAt0 m c t.val t.isLt).2.2.2.2.1 = newMk (F := Ideal) (iblk m c 0 t) (k0_pay7 (F := Ideal))
    ∧ (outsAt0 m c t.val t.isLt).2.2.2.2.2 = newZk (F := Ideal) (iblk m c 0 t) (k0_pay7 (F := Ideal)) (k0_pay8 (F := Ideal)) := by
  rw [outsAt0_A m c t h0 h1]
  dsimp only
  exact ⟨(sA0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t)).trans (pay27 _),
    sA1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t),
    (sA2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t)).trans (pay26 _),
    (sA3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t)).trans (pay2 _),
    sA4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t)⟩

set_option maxHeartbeats 4000000 in
/-- After any later point: the new accumulators over what the point before left. -/
theorem compsBC (t : Fin cfg0.N) (h0 : ¬t.val % 50 = 0) :
    (outsAt0 m c t.val t.isLt).2.1 = newMe (F := Ideal) (iblk m c 1 t) (outsAt0 m c (t.val - 1) (Nat.lt_of_le_of_lt (Nat.sub_le _ _) t.isLt)).2.1
    ∧ (outsAt0 m c t.val t.isLt).2.2.1 = newZe (F := Ideal) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2.1 = newS (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2.1
    ∧ (outsAt0 m c t.val t.isLt).2.2.2.2.1 = newMk (F := Ideal) (iblk m c 0 t) (outsAt0 m c (t.val - 1) (Nat.lt_of_le_of_lt (Nat.sub_le _ _) t.isLt)).2.2.2.2.1
    ∧ (outsAt0 m c t.val t.isLt).2.2.2.2.2 = newZk (F := Ideal) (iblk m c 0 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  by_cases h1 : t.val % 50 = 49
  · rw [outsAt0_C m c t h0 h1]
    dsimp only
    exact ⟨(sC0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans (pay27 _),
      sC1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      (sC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans (pay26 _),
      (sC3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans (pay2 _),
      sC4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩
  · rw [outsAt0_B m c t h0 h1]
    dsimp only
    exact ⟨(sB0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans (pay27 _),
      sB1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      (sB2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans (pay26 _),
      (sB3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans (pay2 _),
      sB4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

set_option maxHeartbeats 4000000 in
/-- After the last point the output's buffer holds the output block over what the point before left. -/
theorem compOut (t : Fin cfg0.N) (h0 : ¬t.val % 50 = 0) (h1 : t.val % 50 = 49) :
    (outsAt0 m c t.val t.isLt).1 = outBlock (F := Ideal) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  rw [outsAt0_C m c t h0 h1]
  dsimp only
  exact oC (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

end Cert.KernelIdeal.Inv

end
-- ==== Proof.Acc.lean ====
/-
  The accumulators after every grid point, and the output block of the last one, for real data.

  By induction on the point, after point `n` lane `r` of the five accumulators holds a real shift `M`, `Z` and `S` of the
  row's first `2000 n + 2000` entries at that shift, a real shift `Mk` and the Korean `Z` at it: the starting values are
  a real number and zeros, which are `Z` and `S` of no entries, and each point is the lane step. After the last point
  the sums run over the whole rows, each lane's loss is the row loss at the lane's shifts, which is the row loss at
  shifts zero, and every entry of the output block is the sum of these over the rows.
-/
import proofs.«108505_g52810917872248_cont_9to1_m_94_21_alg».proof.Proof.Inv

set_option maxRecDepth 16384

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.PayAt Cert.RowLoss Cert.LossSpec

/-- If every lane's new accumulators hold shifts and the sums of whole real rows at them, every entry of the output
    block is the sum over the rows of the row losses at shifts zero. -/
theorem outBlock_total (x0 x1 : Vec Ideal S2000x1024 .f32) (xs0 xs1 xs2 xs3 xs4 : Vec Ideal S1x1024 .f32)
    (e k : Fin 1024 → ℕ → ℝ)
    (hstep : ∀ q : Fin 1024, ∃ M' Mk' : ℝ, newMe (F := Ideal) x1 xs0 (ix2 0 q) = (M' : EReal)
      ∧ newZe (F := Ideal) x1 xs0 xs1 (ix2 0 q) = ((Z 100000 (e q) M' : ℝ) : EReal)
      ∧ newS (F := Ideal) x0 x1 xs0 xs2 (ix2 0 q) = ((S 100000 (e q) (k q) M' : ℝ) : EReal)
      ∧ newMk (F := Ideal) x0 xs3 (ix2 0 q) = (Mk' : EReal)
      ∧ newZk (F := Ideal) x0 xs3 xs4 (ix2 0 q) = ((Z 100000 (k q) Mk' : ℝ) : EReal)) (l : Fin 128) :
    outBlock (F := Ideal) x0 x1 xs0 xs1 xs2 xs3 xs4 (ix3 0 0 l)
      = ((∑ q : Fin 1024, rowLoss 100000 (e q) (k q) 0 0 : ℝ) : EReal) := by
  rw [outBlock_lane, Cert.Lane.coe_sum]
  refine Finset.sum_congr rfl fun q _ => ?_
  obtain ⟨M', Mk', g1, g2, g3, g4, g5⟩ := hstep q
  rw [g1, g2, g3, g4, g5, Cert.Lane.laneLoss_rowLoss (by norm_num : 0 < 100000)]
  exact congrArg _ (rowLoss_shift _ _ _ _ _ _ (by norm_num : 0 < 100000))

variable (m : (ℓ : Loc nD τ sig) → Buf (Elt Ideal) ℓ) (c : Dev nD)

/-- What lane `r` of the accumulators holds after point `n`: shifts `M`, `Mk` and the sums of the rows' first
    `2000 n + 2000` entries at them. -/
def Inv (n : ℕ) (h : n < cfg0.N) : Prop := ∀ r : Fin 1024, ∃ M Mk : ℝ,
    (outsAt0 m c n h).2.1 (ix2 0 r) = (M : EReal)
    ∧ (outsAt0 m c n h).2.2.1 (ix2 0 r) = ((Z (2000 * n + 2000) (rowOf (EArr m c) r) M : ℝ) : EReal)
    ∧ (outsAt0 m c n h).2.2.2.1 (ix2 0 r) = ((S (2000 * n + 2000) (rowOf (EArr m c) r) (rowOf (KArr m c) r) M : ℝ) : EReal)
    ∧ (outsAt0 m c n h).2.2.2.2.1 (ix2 0 r) = (Mk : EReal)
    ∧ (outsAt0 m c n h).2.2.2.2.2 (ix2 0 r) = ((Z (2000 * n + 2000) (rowOf (KArr m c) r) Mk : ℝ) : EReal)

set_option maxHeartbeats 4000000 in
theorem inv (hK : RealArr (KArr m c)) (hE : RealArr (EArr m c)) : ∀ (n : ℕ) (h : n < cfg0.N), Inv m c n h
  | 0, h => by
    intro r
    obtain ⟨r0, hr0⟩ := Cert.Consts.ofBits_start
    obtain ⟨a0, a1, a2, a3, a4⟩ := compsA m c ⟨0, h⟩ rfl (by show ¬(0 : ℕ) % 50 = 49; decide)
    obtain ⟨M', Mk', g1, g2, g3, g4, g5⟩ := lane_step (iblk m c 0 ⟨0, h⟩) (iblk m c 1 ⟨0, h⟩)
      (k0_pay4 (F := Ideal)) (k0_pay5 (F := Ideal)) (k0_pay6 (F := Ideal)) (k0_pay7 (F := Ideal)) (k0_pay8 (F := Ideal)) r (rowOf (EArr m c) r) (rowOf (KArr m c) r) (2000 * 0)
      (fun p => blk1_real m c hE ⟨0, h⟩ r p) (fun p => blk0_real m c hK ⟨0, h⟩ r p) r0 r0
      ((pay4_at r).trans hr0)
      ((pay5_at r).trans (by show (0 : EReal) = ((Z 0 (rowOf (EArr m c) r) r0 : ℝ) : EReal); rw [Z_zero, EReal.coe_zero]))
      ((pay6_at r).trans (by show (0 : EReal) = ((S 0 (rowOf (EArr m c) r) (rowOf (KArr m c) r) r0 : ℝ) : EReal); rw [S_zero, EReal.coe_zero]))
      ((pay7_at r).trans hr0)
      ((pay8_at r).trans (by show (0 : EReal) = ((Z 0 (rowOf (KArr m c) r) r0 : ℝ) : EReal); rw [Z_zero, EReal.coe_zero]))
    exact ⟨M', Mk', (congrFun a0 _).trans g1, (congrFun a1 _).trans g2, (congrFun a2 _).trans g3,
      (congrFun a3 _).trans g4, (congrFun a4 _).trans g5⟩
  | n + 1, h => by
    intro r
    obtain ⟨M, Mk, i1, i2, i3, i4, i5⟩ := inv hK hE n (Nat.lt_of_succ_lt h) r
    have hB : ¬(⟨n + 1, h⟩ : Fin cfg0.N).val % 50 = 0 := by
      have hN : cfg0.N = 50 := N_0
      show ¬(n + 1) % 50 = 0
      omega
    obtain ⟨a0, a1, a2, a3, a4⟩ := compsBC m c ⟨n + 1, h⟩ hB
    obtain ⟨M', Mk', g1, g2, g3, g4, g5⟩ := lane_step (iblk m c 0 ⟨n + 1, h⟩) (iblk m c 1 ⟨n + 1, h⟩)
      (outsAt0 m c n (Nat.lt_of_succ_lt h)).2.1 (outsAt0 m c n (Nat.lt_of_succ_lt h)).2.2.1
      (outsAt0 m c n (Nat.lt_of_succ_lt h)).2.2.2.1 (outsAt0 m c n (Nat.lt_of_succ_lt h)).2.2.2.2.1
      (outsAt0 m c n (Nat.lt_of_succ_lt h)).2.2.2.2.2 r (rowOf (EArr m c) r) (rowOf (KArr m c) r) (2000 * (n + 1))
      (fun p => blk1_real m c hE ⟨n + 1, h⟩ r p) (fun p => blk0_real m c hK ⟨n + 1, h⟩ r p) M Mk i1 i2 i3 i4 i5
    exact ⟨M', Mk', (congrFun a0 _).trans g1, (congrFun a1 _).trans g2, (congrFun a2 _).trans g3,
      (congrFun a3 _).trans g4, (congrFun a4 _).trans g5⟩

/-- The sum over the rows of the row losses. -/
def total : ℝ := ∑ q : Fin 1024, rowLoss 100000 (rowOf (EArr m c) q) (rowOf (KArr m c) q) 0 0

set_option maxHeartbeats 1000000 in
/-- After the last point every entry of the output's buffer holds the total. The point is kept symbolic: it is the
    point whose number is 49 modulo 50, and the one before it is its predecessor. -/
theorem out_last (hK : RealArr (KArr m c)) (hE : RealArr (EArr m c)) (t : Fin cfg0.N) (h1 : t.val % 50 = 49) (l : Fin 128) :
    (outsAt0 m c t.val t.isLt).1 (ix3 0 0 l) = ((total m c : ℝ) : EReal) := by
  have hN : cfg0.N = 50 := N_0
  have hlt := t.isLt
  have h0 : ¬t.val % 50 = 0 := by omega
  have hn : 2000 * (t.val - 1) + 2000 = 2000 * t.val := by omega
  have hn2 : 2000 * t.val + 2000 = 100000 := by omega
  refine (congrFun (compOut m c t h0 h1) _).trans ?_
  refine outBlock_total (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2
    (fun q => rowOf (EArr m c) q) (fun q => rowOf (KArr m c) q) (fun q => ?_) l
  obtain ⟨M, Mk, i1, i2, i3, i4, i5⟩ := inv m c hK hE (t.val - 1) (Nat.lt_of_le_of_lt (Nat.sub_le _ _) t.isLt) q
  rw [hn] at i2 i3 i5
  have hs := lane_step (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2
    q (rowOf (EArr m c) q) (rowOf (KArr m c) q) (2000 * t.val)
    (fun p => blk1_real m c hE t q p) (fun p => blk0_real m c hK t q p) M Mk i1 i2 i3 i4 i5
  rw [hn2] at hs
  exact hs

end Cert.KernelIdeal.Inv

end
-- ==== Proof.Finite.lean ====
/-
  The precondition makes both argument arrays real-valued.

  Of each argument array the precondition says that `|x| < +∞` at every entry: it compares `max x (-x)` with
  the extended real that the 32-bit pattern `0x7F800000` denotes, which is `⊤`, and takes the conjunction of
  the comparisons over all entries; the two conjunctions are joined by one more `and`. A conjunction that is
  `1` had a `1` at every entry. An extended real whose absolute value is below `⊤` is neither `⊤` nor `⊥`
  (`max ⊥ (-⊥) = ⊤`), so it is the coercion of a real number: an entry whose absolute value is below `+∞` is a
  real number.
-/
import proofs.«108505_g52810917872248_cont_9to1_m_94_21_alg».proof.Proof.Gen.Pre_finite_inputs
import proofs.«108505_g52810917872248_cont_9to1_m_94_21_alg».proof.Proof.LossSpec
import Idealize.ShloMosaic.Lib.ReduceAll

noncomputable section

namespace Cert.Finite

open Idealize.ShloMosaic Idealize.ShloMosaic.ValueIdx

/-- A shape of rank zero has one index. -/
instance : Subsingleton Cert.Pre_finite_inputs.S_.Idx := ⟨fun a b => funext fun d => d.elim0⟩

/-- The pattern `0x7F800000` of the 32-bit format denotes `+∞`. -/
theorem inf_eq_top : Ideal.ofBits .f32 0x7F800000#32 = (⊤ : EReal) := by
  simp [Ideal.ofBits, Ideal.ieee]

/-- A one-bit word made from a truth value is `1` exactly when the value is true. -/
theorem ofBool_eq_one (b : Bool) : BitVec.ofBool b = 1#1 ↔ b = true := by cases b <;> decide

/-- An extended real whose absolute value is below `⊤` is a real number. -/
theorem real_of_abs_lt_top (x : EReal) (h : max x (-x) < ⊤) : x = ((x.toReal : ℝ) : EReal) := by
  induction x using EReal.rec with
  | bot => simp at h
  | coe r => simp
  | top => simp at h

/-- The comparison `|x| < +∞` coming out `1` says that `x` is a real number. -/
theorem real_of_cmp (x : EReal)
    (h : Ideal.cmp .olt (max x (-x)) (Ideal.ofBits .f32 0x7F800000#32) = 1#1) :
    x = ((x.toReal : ℝ) : EReal) := by
  rw [inf_eq_top] at h
  have h' : BitVec.ofBool (decide (max x (-x) < (⊤ : EReal))) = 1#1 := h
  rw [ofBool_eq_one] at h'
  exact real_of_abs_lt_top x (of_decide_eq_true h')

/-- Under the precondition every entry of both argument arrays is a real number. -/
theorem real_of_pre [Cert.Pre_finite_inputs.Facts] (x0 x1 : Cert.LossSpec.SArr.Idx → EReal)
    (h : Cert.Pre_finite_inputs.fn (F := Ideal) x0 x1 = fun _ => 1#1) :
    Cert.LossSpec.RealArr x0 ∧ Cert.LossSpec.RealArr x1 := by
  have e := congrFun h ix0
  dsimp only [Cert.Pre_finite_inputs.fn] at e
  change IntOp.andi _ _ = 1#1 at e
  obtain ⟨e0, e1⟩ := IntOp.andi_eq_one.1 e
  refine ⟨fun i => ?_, fun i => ?_⟩
  · exact real_of_cmp (x0 i) (Host.reduce_andi_all _ _ _ _ _ e0 i)
  · exact real_of_cmp (x1 i) (Host.reduce_andi_all _ _ _ _ _ e1 i)

end Cert.Finite

end
-- ==== Proof.KValue.lean ====
/-
  The kernel's result.

  The output window's one block is the whole `[1, 1, 128]` result array and is written back after the last grid
  point only, so the array ends with every entry at the total of the row losses. The lines after the region take
  entry `(0, 0, 0)`, sum it over its one position from zero, and divide by 1024: the loss.
-/
import proofs.«108505_g52810917872248_cont_9to1_m_94_21_alg».proof.Proof.Acc
import proofs.«108505_g52810917872248_cont_9to1_m_94_21_alg».proof.Proof.Finite
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.KernelIdeal.Inv Cert.LossSpec

variable (m : (ℓ : Loc nD τ sig) → Buf (Elt Ideal) ℓ) (ρ : Dev nD → PrngReg)

/-- The last grid point. -/
abbrev tLast : Fin cfg0.N := ⟨49, by rw [show cfg0.N = 50 from N_0]; decide⟩

/-- The result array of the region: every entry the total. -/
def outArr (c : Dev nD) : Buf (Elt Ideal) ((c : Thread nD τ).loc main_v2) := fun _ => ((total m c : ℝ) : EReal)

/-- After the last point the output's buffer is that array. -/
theorem last_eq (c : Dev nD) (hK : RealArr (KArr m c)) (hE : RealArr (EArr m c)) (t : Fin cfg0.N) (h1 : t.val % 50 = 49) :
    ((outsAt0 m c t.val t.isLt).1 : S1x1x128.Idx → EReal) = outArr m c := by
  funext j
  obtain ⟨a, b, l, rfl⟩ : ∃ (a : Fin 1) (b : Fin 1) (l : Fin 128), j = ix3 a b l := ⟨j 0, j 1, j 2, eq_ix3 j⟩
  obtain rfl : a = 0 := Subsingleton.elim _ _
  obtain rfl : b = 0 := Subsingleton.elim _ _
  exact out_last m c hK hE t h1 l

/-- The output window's block never moves. -/
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

/-- The one write-back, after the last point, writes the array: its block is the whole array. -/
theorem flushed_eq (c : Dev nD) (hK : RealArr (KArr m c)) (hE : RealArr (EArr m c)) (t : Fin cfg0.N)
    (hf : (cfg0.win 2).flush t = true) :
    (dats m 0 c).flushed 2 t = ((cfg0.win 2).blk t).view.read (Elt Ideal) (outArr m c) := by
  have h1 : t.val % 50 = 49 := (flush0_2 t).mp hf
  show (cfg0.win 2).cut (grid0.coords t) ((dats m 0 c).after 2 t) = _
  rw [after0_2, last_eq m c hK hE t h1]
  have hz' : (fun a => win0_2.index t a * main_v2.ty.shape.size a) = fun _ => 0 := funext fun a => by
    match a with
    | ⟨0, _⟩ => show win0_2.index t 0 * _ = 0; rw [(idx2 t).1, Nat.zero_mul]
    | ⟨1, _⟩ => show win0_2.index t 1 * _ = 0; rw [(idx2 t).2.1, Nat.zero_mul]
    | ⟨2, _⟩ => show win0_2.index t 2 * _ = 0; rw [(idx2 t).2.2, Nat.zero_mul]
  exact (Memref.read_access_unit_zero (Elt Ideal) main_v2 hz' (fun a => by rw [congrFun hz' a]; simp) (outArr m c)).symm

/-- So the result array of the region ends holding the total at every entry. -/
theorem final_o (c : Dev nD) (hK : RealArr (KArr m c)) (hE : RealArr (EArr m c)) :
    (dats m 0 c).arrAt 2 cfg0.N = outArr m c :=
  (dats m 0 c).arrAt_eq_of_cover 2 (outArr m c) (flushed_eq m c hK hE) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      have h2 : (i 2 : Nat) < 128 := (i 2).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega
      | ⟨2, _⟩ => show win0_2.index tLast 2 * win0_2.size 2 ≤ (i 2 : Nat) ∧ (i 2 : Nat) < win0_2.index tLast 2 * win0_2.size 2 + win0_2.xsize (grid0.coords tLast) 2
                  rw [show win0_2.index tLast 2 * win0_2.size 2 = 0 from by decide +kernel, show win0_2.xsize (grid0.coords tLast) 2 = 128 from by decide +kernel]; omega⟩

/-- A rank-one shape of extent one has one index. -/
instance : Subsingleton S1.Idx := ⟨fun a b => by
  obtain ⟨p, rfl⟩ : ∃ p : Fin 1, a = ix1 p := ⟨a 0, eq_ix1 a⟩
  obtain ⟨q, rfl⟩ : ∃ q : Fin 1, b = ix1 q := ⟨b 0, eq_ix1 b⟩
  rw [Subsingleton.elim p q]⟩

/-- The lines after the region, applied to an array holding `x` at every entry: `(0 + x) / 1024`. -/
theorem tail_const (x : ℝ) (A : S1x1x128.Idx → EReal) (hA : A = fun _ => (x : EReal)) (i : S_.Idx) :
    Host.divf (F := Ideal)
      (Host.reduceAdd (shapeCast S1 (extractStridedSlice S1x1x1 ![0, 0, 0] A slices_S1x1x128_S1x1x1_0_0_0) shapeCasts_S1x1x1_S1)
        (constant S_ .f32 0x00000000#32) reducesTo_S1_S_d0 h_S_)
      (constant S_ .f32 0x44800000#32) i = ((x / 1024 : ℝ) : EReal) := by
  subst hA
  have hv : (shapeCast S1 (extractStridedSlice S1x1x1 ![0, 0, 0] (fun _ : S1x1x128.Idx => (x : EReal)) slices_S1x1x128_S1x1x1_0_0_0)
      shapeCasts_S1x1x1_S1 : S1.Idx → EReal) = fun _ => (x : EReal) := rfl
  rw [hv]
  show Ideal.div (Host.reduceAdd (F := Ideal) (fun _ : S1.Idx => (x : EReal)) (constant S_ .f32 0x00000000#32) reducesTo_S1_S_d0 h_S_ i)
    (Ideal.ofBits .f32 0x44800000#32) = _
  simp only [Host.reduceAdd, Ideal.hostReduceAdd_def]
  rw [Ideal.hostReduceAdd_total reducesTo_S1_S_d0 (fun b => b.elim0), Fintype.sum_subsingleton _ (ix1 (0 : Fin 1))]
  show Ideal.div (Ideal.ofBits .f32 0x00000000#32 + (x : EReal)) (Ideal.ofBits .f32 0x44800000#32) = _
  rw [Cert.Consts.ofBits_zero, Cert.Consts.ofBits_1024, zero_add, Ideal.div_coe (by norm_num : (1024 : ℝ) ≠ 0), ← EReal.coe_mul]
  congr 1
  ring

/-- The kernel's result: the loss. -/
theorem tail_v6 (c : Dev nD) (hK : RealArr (KArr m c)) (hE : RealArr (EArr m c)) :
    Pipeline.afterTail₀ cfgs (dats m) 0 (V0 m) [hostOps1] c main_v6 = fun _ => loss (KArr m c) (EArr m c) := by
  unfold Pipeline.afterTail₀
  show StableHlo.after hostOps1 _ (Proc.devRef .tc main_v6) = _
  after_results
  funext i
  exact (tail_const (total m c) _ ((Pipeline.withArrays_arr spec0 launch0.win.arr_inj c _ _ 2).trans (final_o m c hK hE)) i).trans rfl

/-- Every weakly fair execution of the kernel's program on real-valued arguments terminates with the result at the
    loss and the arguments unchanged. -/
theorem run (hK : ∀ c, RealArr (KArr m c)) (hE : ∀ c, RealArr (EArr m c)) :
    θ_run defs (onTc (τ := τ) (main (F := Ideal))) ⟨m, fun _ => 0, ρ⟩ fun r => ∀ c : Dev nD,
      r.2.mem ((c : Thread nD τ).loc main_v6) = (fun _ => loss (KArr m c) (EArr m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (tail_v6 m c (hK c) (hE c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.RefBasic.lean ====
/-
  Facts about extended reals used to read the reference at real arguments: division by one and of a real by a
  nonzero real, a finite sum of real coercions is the coercion of the sum, the maximum over a nonempty finite
  family of real numbers, folded from minus infinity, is a real number, and the comparison "not equal" at two
  different values and at one value twice.
-/
import Idealize.ShloMosaic.PureOps.Ideal.Laws

noncomputable section

open scoped BigOperators

namespace Cert.RefBasic

open Idealize.ShloMosaic

/-- Division by one changes nothing. -/
theorem div_one (x : EReal) : Ideal.div x 1 = x := by
  unfold Ideal.div; rw [if_neg one_ne_zero, inv_one, mul_one]

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- A finite sum of real coercions is the coercion of the sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Folding max from minus infinity over a nonempty family of reals gives a real. -/
theorem fold_max_real {ι : Type} (s : Finset ι) (hs : s.Nonempty) (f : ι → EReal)
    (hf : ∀ i, f i = ((f i).toReal : EReal)) :
    s.fold max ⊥ f = (((s.fold max ⊥ f).toReal : ℝ) : EReal) := by
  symm
  apply EReal.coe_toReal
  · apply ne_of_lt
    rw [Finset.fold_max_lt]
    refine ⟨bot_lt_top, fun i _ => ?_⟩
    rw [hf i]; exact EReal.coe_lt_top _
  · apply ne_of_gt
    rw [Finset.lt_fold_max]
    obtain ⟨i, hi⟩ := hs
    refine Or.inr ⟨i, hi, ?_⟩
    rw [hf i]; exact EReal.bot_lt_coe _

/-- "Not equal" holds of two different values. -/
theorem cmp_une_of_ne {x y : EReal} (h : x ≠ y) : Ideal.cmp .une x y = 1#1 := by
  show BitVec.ofBool (decide (x ≠ y)) = 1#1
  rw [decide_eq_true h]; rfl

/-- "Not equal" fails of a value and itself. -/
theorem cmp_une_self (x : EReal) : Ideal.cmp .une x x = 0#1 := by
  show BitVec.ofBool (decide (x ≠ x)) = 0#1
  rw [decide_eq_false (not_not.mpr rfl)]; rfl

end Cert.RefBasic

end
-- ==== Proof.RefSoftmax.lean ====
/-
  The English side of the reference, read at real arguments.

  Dividing by one changes nothing. The maximum of row r of a real array, folded from minus infinity and then
  taken against minus infinity once more, is a real number, the row's shift a. At entry (r, j) the shifted
  exponential is exp (e j - a), the row's sum of them is Z, and their quotient is the softmax probability
  of entry j at shift a.
-/
import proofs.«108505_g52810917872248_cont_9to1_m_94_21_alg».proof.Proof.RefReadP
import proofs.«108505_g52810917872248_cont_9to1_m_94_21_alg».proof.Proof.Consts
import proofs.«108505_g52810917872248_cont_9to1_m_94_21_alg».proof.Proof.LossSpec
import proofs.«108505_g52810917872248_cont_9to1_m_94_21_alg».proof.Proof.LibRowReduce
import proofs.«108505_g52810917872248_cont_9to1_m_94_21_alg».proof.Proof.RefBasic
import Idealize.ShloMosaic.Lib.ValueIdx
import Idealize.ShloMosaic.PureOps.Ideal.Laws

noncomputable section

open scoped BigOperators

namespace Cert.RefSoftmax

open Idealize.ShloMosaic Idealize.ShloMosaic.ValueIdx Cert.ReferenceIdeal Cert.ReferenceIdeal.Gen
  Cert.ReferenceIdeal.ReadP Cert.Consts Cert.LossSpec Cert.RefBasic Cert.RowLoss

/-- The maximum of row r, as a real number. -/
def rowMax (A : SArr.Idx → EReal) (r : Fin 1024) : ℝ :=
  ((Finset.univ : Finset (Fin 100000)).fold max ⊥ (fun j => A (ix2 r j))).toReal

/-- The fold of max over a row of reals from minus infinity is the row's maximum. -/
theorem fold_row (A : SArr.Idx → EReal) (hA : RealArr A) (r : Fin 1024) :
    (Finset.univ : Finset (Fin 100000)).fold max ⊥ (fun j => A (ix2 r j)) = ((rowMax A r : ℝ) : EReal) :=
  fold_max_real _ ⟨⟨0, by norm_num⟩, Finset.mem_univ _⟩ _ (fun _ => hA _)

/-- The two broadcasts of a per-row value read it at the row. -/
theorem idx_row5 (r : Fin 1024) (j : Fin 100000) : idx_main_v5 (idx_main_v6 (ix2 r j)) = ix1 r := by
  funext a; match a with | ⟨0, _⟩ => rfl

theorem idx_row10 (r : Fin 1024) (j : Fin 100000) : idx_main_v10 (idx_main_v11 (ix2 r j)) = ix1 r := by
  funext a; match a with | ⟨0, _⟩ => rfl

theorem idx_sum9 (r : Fin 1024) (k : Fin 100000) : idx_main_v9 (ix1 r) k = ix2 r k := by
  funext a; match a with | ⟨0, _⟩ => rfl | ⟨1, _⟩ => rfl

variable (x1 : (⟨S1024x100000, .f32⟩ : BufTy).Contents (Elt Ideal))

/-- The logits divided by one are the logits. -/
theorem v1_eq : val_main_v1 (F := Ideal) x1 = x1 := by
  funext i
  rw [val_main_v1_apply, val_main_v0_apply, val_main_cst_apply, Ideal.hostDivf_def, Ideal.ofBits_def,
    ofBits_one, div_one]

variable (h1 : RealArr x1) (r : Fin 1024) (j : Fin 100000)
include h1

theorem v2_row : val_main_v2 (F := Ideal) x1 (ix1 r) = ((rowMax x1 r : ℝ) : EReal) := by
  unfold val_main_v2
  rw [v1_eq, hostReduce_max_row reducesTo_S1024x100000_S1024_d1 (by decide) x1 _ h_S_ r,
    val_main_cst_0_apply, Ideal.ofBits_def, ofBits_negInf]
  exact fold_row x1 h1 r

theorem v4_row : val_main_v4 (F := Ideal) x1 (ix1 r) = ((rowMax x1 r : ℝ) : EReal) := by
  rw [val_main_v4_apply, val_main_v3_apply, val_main_cst_1_apply, v2_row x1 h1 r, Ideal.maximumf_def,
    Ideal.ofBits_def, ofBits_negInf, max_eq_right bot_le]

theorem v6_at : val_main_v6 (F := Ideal) x1 (ix2 r j) = ((rowMax x1 r : ℝ) : EReal) := by
  rw [val_main_v6_apply, val_main_v5_apply, idx_row5, v4_row x1 h1 r]

theorem v8_at : val_main_v8 (F := Ideal) x1 (ix2 r j)
    = ((Real.exp (rowOf x1 r j.val - rowMax x1 r) : ℝ) : EReal) := by
  rw [val_main_v8_apply, val_main_v7_apply, v1_eq, v6_at x1 h1 r j, h1.at r j, Ideal.subf_def,
    ← EReal.coe_sub, Ideal.hostUnary_exp_def, Ideal.exp_coe]

theorem v9_row : val_main_v9 (F := Ideal) x1 (ix1 r)
    = ((Z 100000 (rowOf x1 r) (rowMax x1 r) : ℝ) : EReal) := by
  rw [val_main_v9_apply, val_main_cst_2_apply, Ideal.ofBits_def, ofBits_zero, zero_add]
  have h : ∀ k : Fin 100000, val_main_v8 (F := Ideal) x1 (idx_main_v9 (ix1 r) k)
      = ((Real.exp (rowOf x1 r k.val - rowMax x1 r) : ℝ) : EReal) := by
    intro k; rw [idx_sum9]; exact v8_at x1 h1 r k
  rw [Finset.sum_congr rfl (fun k _ => h k), coe_sum, Z, Finset.sum_range]

theorem v11_at : val_main_v11 (F := Ideal) x1 (ix2 r j)
    = ((Z 100000 (rowOf x1 r) (rowMax x1 r) : ℝ) : EReal) := by
  rw [val_main_v11_apply, val_main_v10_apply, idx_row10, v9_row x1 h1 r]

/-- The softmax at entry (r, j). -/
theorem v12_at : val_main_v12 (F := Ideal) x1 (ix2 r j)
    = ((prob 100000 (rowOf x1 r) (rowMax x1 r) j.val : ℝ) : EReal) := by
  rw [val_main_v12_apply, v8_at x1 h1 r j, v11_at x1 h1 r j, Ideal.hostDivf_def,
    div_coe_coe _ _ (Z_pos _ _ (by norm_num)).ne']
  rfl

end Cert.RefSoftmax

end
-- ==== Proof.RefLogSoftmax.lean ====
/-
  The Korean side of the reference, read at real arguments.

  Dividing by one changes nothing; the row's maximum b is a real number; at entry (r, j) the shifted logit is
  k j - b, the row's sum of the exponentials is Z, which is positive, so its logarithm is the real logarithm,
  and the log-softmax of entry j at shift b is (k j - b) - log Z.
-/
import proofs.«108505_g52810917872248_cont_9to1_m_94_21_alg».proof.Proof.RefSoftmax

noncomputable section

open scoped BigOperators

namespace Cert.RefLogSoftmax

open Idealize.ShloMosaic Idealize.ShloMosaic.ValueIdx Cert.ReferenceIdeal Cert.ReferenceIdeal.Gen
  Cert.ReferenceIdeal.ReadP Cert.Consts Cert.LossSpec Cert.RefBasic Cert.RowLoss Cert.RefSoftmax

theorem idx_row3 (r : Fin 1024) (j : Fin 100000) : idx_main_call0_v3 (idx_main_call0_v4 (ix2 r j)) = ix1 r := by
  funext a; match a with | ⟨0, _⟩ => rfl

theorem idx_row8 (r : Fin 1024) (j : Fin 100000) : idx_main_call0_v8 (idx_main_call0_v10 (ix2 r j)) = ix1 r := by
  funext a; match a with | ⟨0, _⟩ => rfl

theorem idx_sum7 (r : Fin 1024) (k : Fin 100000) : idx_main_call0_v7 (ix1 r) k = ix2 r k := by
  funext a; match a with | ⟨0, _⟩ => rfl | ⟨1, _⟩ => rfl

variable (x0 : (⟨S1024x100000, .f32⟩ : BufTy).Contents (Elt Ideal))

/-- The logits divided by one are the logits. -/
theorem v14_eq : val_main_v14 (F := Ideal) x0 = x0 := by
  funext i
  rw [val_main_v14_apply, val_main_v13_apply, val_main_cst_3_apply, Ideal.hostDivf_def, Ideal.ofBits_def,
    ofBits_one, div_one]

variable (h0 : RealArr x0) (r : Fin 1024) (j : Fin 100000)
include h0

theorem c0_row : val_main_call0_v0 (F := Ideal) x0 (ix1 r) = ((rowMax x0 r : ℝ) : EReal) := by
  unfold val_main_call0_v0
  rw [v14_eq, hostReduce_max_row reducesTo_S1024x100000_S1024_d1 (by decide) x0 _ h_S_ r,
    val_main_call0_cst_apply, Ideal.ofBits_def, ofBits_negInf]
  exact fold_row x0 h0 r

theorem c2_row : val_main_call0_v2 (F := Ideal) x0 (ix1 r) = ((rowMax x0 r : ℝ) : EReal) := by
  rw [val_main_call0_v2_apply, val_main_call0_v1_apply, val_main_call0_cst_0_apply, c0_row x0 h0 r,
    Ideal.maximumf_def, Ideal.ofBits_def, ofBits_negInf, max_eq_right bot_le]

theorem c4_at : val_main_call0_v4 (F := Ideal) x0 (ix2 r j) = ((rowMax x0 r : ℝ) : EReal) := by
  rw [val_main_call0_v4_apply, val_main_call0_v3_apply, idx_row3, c2_row x0 h0 r]

theorem c5_at : val_main_call0_v5 (F := Ideal) x0 (ix2 r j)
    = ((rowOf x0 r j.val - rowMax x0 r : ℝ) : EReal) := by
  rw [val_main_call0_v5_apply, v14_eq, c4_at x0 h0 r j, h0.at r j, Ideal.subf_def, ← EReal.coe_sub]

theorem c6_at : val_main_call0_v6 (F := Ideal) x0 (ix2 r j)
    = ((Real.exp (rowOf x0 r j.val - rowMax x0 r) : ℝ) : EReal) := by
  rw [val_main_call0_v6_apply, c5_at x0 h0 r j, Ideal.hostUnary_exp_def, Ideal.exp_coe]

theorem c7_row : val_main_call0_v7 (F := Ideal) x0 (ix1 r)
    = ((Z 100000 (rowOf x0 r) (rowMax x0 r) : ℝ) : EReal) := by
  rw [val_main_call0_v7_apply, val_main_call0_cst_1_apply, Ideal.ofBits_def, ofBits_zero, zero_add]
  have h : ∀ k : Fin 100000, val_main_call0_v6 (F := Ideal) x0 (idx_main_call0_v7 (ix1 r) k)
      = ((Real.exp (rowOf x0 r k.val - rowMax x0 r) : ℝ) : EReal) := by
    intro k; rw [idx_sum7]; exact c6_at x0 h0 r k
  rw [Finset.sum_congr rfl (fun k _ => h k), coe_sum, Z, Finset.sum_range]

theorem c10_at : val_main_call0_v10 (F := Ideal) x0 (ix2 r j)
    = ((Real.log (Z 100000 (rowOf x0 r) (rowMax x0 r)) : ℝ) : EReal) := by
  rw [val_main_call0_v10_apply, val_main_call0_v9_apply, val_main_call0_v8_apply, idx_row8, c7_row x0 h0 r,
    Ideal.hostUnary_log_def, Ideal.log_coe, if_neg (not_le.mpr (Z_pos _ _ (by norm_num)))]

/-- The log-softmax at entry (r, j). -/
theorem v15_at : val_main_v15 (F := Ideal) x0 (ix2 r j)
    = ((logProb 100000 (rowOf x0 r) (rowMax x0 r) j.val : ℝ) : EReal) := by
  rw [val_main_v15_apply, c5_at x0 h0 r j, c10_at x0 h0 r j, Ideal.subf_def, ← EReal.coe_sub]
  rfl

end Cert.RefLogSoftmax

end
-- ==== Proof.RefValue.lean ====
/-
  The reference's result is the loss.

  Row by row the reference forms `p = softmax e` and `q = log_softmax k`, each at the row's own maximum as
  shift, then sums `p * log p - p * q` over every entry, divides by 1024 and multiplies by one. For real
  entries each row maximum is a real number, every `p` is positive (so the guarded `x * log x` takes its
  ordinary branch), and the sum over all entries is the sum over rows of the row's Kullback–Leibler sum,
  which is the row loss at any shifts.
-/
import proofs.«108505_g52810917872248_cont_9to1_m_94_21_alg».proof.Proof.RefReadP
import proofs.«108505_g52810917872248_cont_9to1_m_94_21_alg».proof.Proof.LossSpec
import proofs.«108505_g52810917872248_cont_9to1_m_94_21_alg».proof.Proof.LibRowReduce
import proofs.«108505_g52810917872248_cont_9to1_m_94_21_alg».proof.Proof.RefLogSoftmax
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.ReadP Cert.LossSpec
open Cert.Consts Cert.RefBasic Cert.RowLoss Cert.RefSoftmax Cert.RefLogSoftmax

section Entry

variable (x0 x1 : (⟨S1024x100000, .f32⟩ : BufTy).Contents (Elt Ideal))
  (h0 : RealArr x0) (h1 : RealArr x1) (r : Fin 1024) (j : Fin 100000)

include h1 in
/-- A probability is not zero. -/
theorem v17_at : val_main_v17 (F := Ideal) x1 (ix2 r j) = 1#1 := by
  rw [val_main_v17_apply, v12_at x1 h1 r j, val_main_v16_apply, val_main_cst_4_apply, Ideal.cmpf_def,
    Ideal.ofBits_def, ofBits_zero]
  exact cmp_une_of_ne (EReal.coe_ne_zero.mpr (prob_pos _ _ (by norm_num) _).ne')

/-- A value is not different from itself. -/
theorem v18_at : val_main_v18 (F := Ideal) x1 (ix2 r j) = 0#1 := by
  rw [val_main_v18_apply, Ideal.cmpf_def]
  exact cmp_une_self _

include h1 in
/-- The guarded `p * log p` takes its ordinary branch, with the real logarithm. -/
theorem v23_at : val_main_v23 (F := Ideal) x1 (ix2 r j)
    = ((prob 100000 (rowOf x1 r) (rowMax x1 r) j.val
        * Real.log (prob 100000 (rowOf x1 r) (rowMax x1 r) j.val) : ℝ) : EReal) := by
  have h19 : val_main_v19 (F := Ideal) x1 (ix2 r j) = 1#1 := by
    rw [val_main_v19_apply, v17_at x1 h1 r j, v18_at x1 r j]; rfl
  rw [val_main_v23_apply, h19, select_one, val_main_v21_apply, val_main_v20_apply, v12_at x1 h1 r j,
    Ideal.hostUnary_log_def, Ideal.log_coe, if_neg (not_le.mpr (prob_pos _ _ (by norm_num) _)),
    Ideal.mulf_def, ← EReal.coe_mul]

include h0 h1 in
/-- One entry's term of the Kullback–Leibler sum. -/
theorem v25_at : val_main_v25 (F := Ideal) x0 x1 (ix2 r j)
    = ((prob 100000 (rowOf x1 r) (rowMax x1 r) j.val
          * Real.log (prob 100000 (rowOf x1 r) (rowMax x1 r) j.val)
        - prob 100000 (rowOf x1 r) (rowMax x1 r) j.val
          * logProb 100000 (rowOf x0 r) (rowMax x0 r) j.val : ℝ) : EReal) := by
  rw [val_main_v25_apply, v23_at x1 h1 r j, val_main_v24_apply, v12_at x1 h1 r j, v15_at x0 h0 r j,
    Ideal.mulf_def, ← EReal.coe_mul, Ideal.subf_def, ← EReal.coe_sub]

include h0 h1 in
/-- The sum over every entry is the sum over the rows of the row's Kullback–Leibler sum. -/
theorem v26_eq (i : S_.Idx) : val_main_v26 (F := Ideal) x0 x1 i
    = ((∑ r : Fin 1024, refRow 100000 (rowOf x1 r) (rowOf x0 r) (rowMax x1 r) (rowMax x0 r) : ℝ) : EReal) := by
  have hrow : ∀ r : Fin 1024, ∑ j : Fin 100000, val_main_v25 (F := Ideal) x0 x1 (ix2 r j)
      = ((refRow 100000 (rowOf x1 r) (rowOf x0 r) (rowMax x1 r) (rowMax x0 r) : ℝ) : EReal) := by
    intro r
    rw [Finset.sum_congr rfl (fun j _ => v25_at x0 x1 h0 h1 r j), coe_sum, refRow, Finset.sum_range]
  rw [val_main_v26_apply, val_main_cst_6_apply, Ideal.ofBits_def, ofBits_zero, zero_add, sum_idx2,
    Finset.sum_congr rfl (fun r _ => hrow r), coe_sum]

end Entry

/-- The reference's last stage, for real-valued arguments, is the loss. -/
theorem ref_value (x0 x1 : (⟨S1024x100000, .f32⟩ : BufTy).Contents (Elt Ideal))
    (h0 : RealArr x0) (h1 : RealArr x1) (i : S_.Idx) :
    val_main_v28 (F := Ideal) x0 x1 i = loss x0 x1 := by
  have hsum : (∑ r : Fin 1024, refRow 100000 (rowOf x1 r) (rowOf x0 r) (rowMax x1 r) (rowMax x0 r))
      = ∑ r : Fin 1024, rowLoss 100000 (rowOf x1 r) (rowOf x0 r) 0 0 :=
    Finset.sum_congr rfl fun r _ => by
      rw [refRow_eq_rowLoss _ _ _ _ (by norm_num), rowLoss_shift _ _ _ 0 _ 0 (by norm_num)]
  rw [val_main_v28_apply, val_main_v27_apply, v26_eq x0 x1 h0 h1 i, val_main_cst_7_apply, val_main_cst_8_apply,
    Ideal.ofBits_def, Ideal.ofBits_def, ofBits_one, ofBits_1024, Ideal.mulf_def, mul_one, Ideal.hostDivf_def,
    div_coe_coe _ _ (by norm_num), hsum]
  rfl

end Cert.RefValue

end
-- ==== Proof.RefRunSteps.lean ====
/-
  The reference's operations one at a time.

  The reference's @main is a straight line of 53 operations, each writing one buffer from the contents of at most
  three others. After k operations the buffers that are still to be read hold: the two arguments their contents at
  the start, every other one its stage as a function of the arguments (P k). Operation k moves these facts one step
  (step k): the buffer it writes takes its function of the operands' stages, which is the next stage by its
  definition, and every other buffer is left as it was, being a different buffer from the one written. An operation
  of a called function moves its operands' contents to the value's type and its result back, along equations of
  types that hold by computation; between such moves a function is applied to the contents themselves.
-/
import proofs.«108505_g52810917872248_cont_9to1_m_94_21_alg».proof.Proof.RefReadP
import Idealize.ShloMosaic.Lib.StableHlo.Run

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable (x0 x1 : (⟨S1024x100000, .f32⟩ : BufTy).Contents (Elt F))

/-! Contents moved to a buffer's own type and back along the equation of the two types are the same contents;
so a function applied between such moves is the function applied to the contents. -/
section Moves

variable {Val : EltTy → Type} {Tx Ta Tb Tc Ty : BufTy}

theorem tunary_heq (x : TRef sig Tx) (y : TRef sig Ty) (f : Tx.Contents Val → Ty.Contents Val)
    {u : x.ref.ty.Contents Val} {vx : Tx.Contents Val} (hu : HEq u vx) :
    HEq (y.toBuf (f (x.ofBuf u))) (f vx) := by
  have e1 : x.ofBuf u = vx := eq_of_heq ((cast_heq _ _).trans hu)
  rw [e1]; exact cast_heq _ _

theorem tbinary_heq (a : TRef sig Ta) (b : TRef sig Tb) (y : TRef sig Ty)
    (f : Ta.Contents Val → Tb.Contents Val → Ty.Contents Val)
    {u : a.ref.ty.Contents Val} {v : b.ref.ty.Contents Val} {va : Ta.Contents Val} {vb : Tb.Contents Val}
    (hu : HEq u va) (hv : HEq v vb) :
    HEq (y.toBuf (f (a.ofBuf u) (b.ofBuf v))) (f va vb) := by
  have e1 : a.ofBuf u = va := eq_of_heq ((cast_heq _ _).trans hu)
  have e2 : b.ofBuf v = vb := eq_of_heq ((cast_heq _ _).trans hv)
  rw [e1, e2]; exact cast_heq _ _

theorem tternary_heq (c : TRef sig Tc) (a : TRef sig Ta) (b : TRef sig Tb) (y : TRef sig Ty)
    (f : Tc.Contents Val → Ta.Contents Val → Tb.Contents Val → Ty.Contents Val)
    {w : c.ref.ty.Contents Val} {u : a.ref.ty.Contents Val} {v : b.ref.ty.Contents Val}
    {vc : Tc.Contents Val} {va : Ta.Contents Val} {vb : Tb.Contents Val}
    (hw : HEq w vc) (hu : HEq u va) (hv : HEq v vb) :
    HEq (y.toBuf (f (c.ofBuf w) (a.ofBuf u) (b.ofBuf v))) (f vc va vb) := by
  have e0 : c.ofBuf w = vc := eq_of_heq ((cast_heq _ _).trans hw)
  have e1 : a.ofBuf u = va := eq_of_heq ((cast_heq _ _).trans hu)
  have e2 : b.ofBuf v = vb := eq_of_heq ((cast_heq _ _).trans hv)
  rw [e0, e1, e2]; exact cast_heq _ _

end Moves

/-- What the buffers hold before the first operation. -/
abbrev P0 (W : Valuation τ sig (Elt F)) : Prop :=
  W (Proc.devRef .tc main_arg0) = x0 ∧
  W (Proc.devRef .tc main_arg1) = x1

/-- Operation 1. -/
abbrev op1 : HloOp τ sig (Elt F) :=
  nullary main_cst (constant S_ .f32 0x3F800000#32)

/-- What the buffers that are read later hold after operation 1. -/
abbrev P1 (W : Valuation τ sig (Elt F)) : Prop :=
  W (Proc.devRef .tc main_arg0) = x0 ∧
  W (Proc.devRef .tc main_arg1) = x1 ∧
  W (Proc.devRef .tc main_cst) = val_main_cst (F := F)

theorem step1 (W : Valuation τ sig (Elt F)) (h : P0 x0 x1 W) :
    P1 x0 x1 ((op1 (F := F)).result W) := by
  obtain ⟨h_main_arg0, h_main_arg1⟩ := h
  exact ⟨(nullary_result_ne _ _ _ W (by decide)).trans h_main_arg0,
    (nullary_result_ne _ _ _ W (by decide)).trans h_main_arg1,
    (nullary_result _ _ _ W).trans rfl⟩

/-- Operation 2. -/
abbrev op2 : HloOp τ sig (Elt F) :=
  unary main_cst main_v0 (broadcastInDim S1024x100000 ![] bcast_S_S1024x100000 : (⟨S_, .f32⟩ : BufTy).Contents (Elt F) → (⟨S1024x100000, .f32⟩ : BufTy).Contents (Elt F))

/-- What the buffers that are read later hold after operation 2. -/
abbrev P2 (W : Valuation τ sig (Elt F)) : Prop :=
  W (Proc.devRef .tc main_arg0) = x0 ∧
  W (Proc.devRef .tc main_arg1) = x1 ∧
  W (Proc.devRef .tc main_v0) = val_main_v0 (F := F)

theorem step2 (W : Valuation τ sig (Elt F)) (h : P1 x0 x1 W) :
    P2 x0 x1 ((op2 (F := F)).result W) := by
  obtain ⟨h_main_arg0, h_main_arg1, h_main_cst⟩ := h
  exact ⟨(unary_result_ne _ _ _ _ _ W (by decide)).trans h_main_arg0,
    (unary_result_ne _ _ _ _ _ W (by decide)).trans h_main_arg1,
    (unary_result _ _ _ _ _ W).trans (by rw [h_main_cst] <;> rfl)⟩

/-- Operation 3. -/
abbrev op3 : HloOp τ sig (Elt F) :=
  binary main_arg1 main_v0 main_v1 (Host.divf : (⟨S1024x100000, .f32⟩ : BufTy).Contents (Elt F) → (⟨S1024x100000, .f32⟩ : BufTy).Contents (Elt F) → (⟨S1024x100000, .f32⟩ : BufTy).Contents (Elt F))

/-- What the buffers that are read later hold after operation 3. -/
abbrev P3 (W : Valuation τ sig (Elt F)) : Prop :=
  W (Proc.devRef .tc main_arg0) = x0 ∧
  W (Proc.devRef .tc main_arg1) = x1 ∧
  W (Proc.devRef .tc main_v1) = val_main_v1 (F := F) x1

theorem step3 (W : Valuation τ sig (Elt F)) (h : P2 x0 x1 W) :
    P3 x0 x1 ((op3 (F := F)).result W) := by
  obtain ⟨h_main_arg0, h_main_arg1, h_main_v0⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_arg1, h_main_v0] <;> rfl)⟩

/-- Operation 4. -/
abbrev op4 : HloOp τ sig (Elt F) :=
  nullary main_cst_0 (constant S_ .f32 0xFF800000#32)

/-- What the buffers that are read later hold after operation 4. -/
abbrev P4 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_cst_0) = val_main_cst_0 (F := F)

theorem step4 (W : Valuation τ sig (Elt F)) (h : P3 x0 x1 W) :
    P4 x0 x1 ((op4 (F := F)).result W) := by
  obtain ⟨h_main_arg0, h_main_arg1, h_main_v1⟩ := h
  exact ⟨(nullary_result_ne _ _ _ W (by decide)).trans h_main_arg0,
    (nullary_result_ne _ _ _ W (by decide)).trans h_main_arg1,
    (nullary_result_ne _ _ _ W (by decide)).trans h_main_v1,
    (nullary_result _ _ _ W).trans rfl⟩

/-- Operation 5. -/
abbrev op5 : HloOp τ sig (Elt F) :=
  binary main_v1 main_cst_0 main_v2 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F))

/-- What the buffers that are read later hold after operation 5. -/
abbrev P5 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_v2) = val_main_v2 (F := F) x1

theorem step5 (W : Valuation τ sig (Elt F)) (h : P4 x0 x1 W) :
    P5 x0 x1 ((op5 (F := F)).result W) := by
  obtain ⟨h_main_arg0, h_main_arg1, h_main_v1, h_main_cst_0⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v1,
    (binary_result _ _ _ _ _ _ _ W).trans (by rw [h_main_v1, h_main_cst_0] <;> rfl)⟩

/-- Operation 6. -/
abbrev op6 : HloOp τ sig (Elt F) :=
  nullary main_cst_1 (constant S_ .f32 0xFF800000#32)

/-- What the buffers that are read later hold after operation 6. -/
abbrev P6 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_v2) = val_main_v2 (F := F) x1 ∧
  W (Proc.devRef .tc main_cst_1) = val_main_cst_1 (F := F)

theorem step6 (W : Valuation τ sig (Elt F)) (h : P5 x0 x1 W) :
    P6 x0 x1 ((op6 (F := F)).result W) := by
  obtain ⟨h_main_arg0, h_main_arg1, h_main_v1, h_main_v2⟩ := h
  exact ⟨(nullary_result_ne _ _ _ W (by decide)).trans h_main_arg0,
    (nullary_result_ne _ _ _ W (by decide)).trans h_main_arg1,
    (nullary_result_ne _ _ _ W (by decide)).trans h_main_v1,
    (nullary_result_ne _ _ _ W (by decide)).trans h_main_v2,
    (nullary_result _ _ _ W).trans rfl⟩

/-- Operation 7. -/
abbrev op7 : HloOp τ sig (Elt F) :=
  unary main_cst_1 main_v3 (broadcastInDim S1024 ![] bcast_S_S1024 : (⟨S_, .f32⟩ : BufTy).Contents (Elt F) → (⟨S1024, .f32⟩ : BufTy).Contents (Elt F))

/-- What the buffers that are read later hold after operation 7. -/
abbrev P7 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_v2) = val_main_v2 (F := F) x1 ∧
  W (Proc.devRef .tc main_v3) = val_main_v3 (F := F)

theorem step7 (W : Valuation τ sig (Elt F)) (h : P6 x0 x1 W) :
    P7 x0 x1 ((op7 (F := F)).result W) := by
  obtain ⟨h_main_arg0, h_main_arg1, h_main_v1, h_main_v2, h_main_cst_1⟩ := h
  exact ⟨(unary_result_ne _ _ _ _ _ W (by decide)).trans h_main_arg0,
    (unary_result_ne _ _ _ _ _ W (by decide)).trans h_main_arg1,
    (unary_result_ne _ _ _ _ _ W (by decide)).trans h_main_v1,
    (unary_result_ne _ _ _ _ _ W (by decide)).trans h_main_v2,
    (unary_result _ _ _ _ _ W).trans (by rw [h_main_cst_1] <;> rfl)⟩

/-- Operation 8. -/
abbrev op8 : HloOp τ sig (Elt F) :=
  binary main_v3 main_v2 main_v4 (maximumf : (⟨S1024, .f32⟩ : BufTy).Contents (Elt F) → (⟨S1024, .f32⟩ : BufTy).Contents (Elt F) → (⟨S1024, .f32⟩ : BufTy).Contents (Elt F))

/-- What the buffers that are read later hold after operation 8. -/
abbrev P8 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_v4) = val_main_v4 (F := F) x1

theorem step8 (W : Valuation τ sig (Elt F)) (h : P7 x0 x1 W) :
    P8 x0 x1 ((op8 (F := F)).result W) := by
  obtain ⟨h_main_arg0, h_main_arg1, h_main_v1, h_main_v2, h_main_v3⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v1,
    (binary_result _ _ _ _ _ _ _ W).trans (by rw [h_main_v3, h_main_v2] <;> rfl)⟩

/-- Operation 9. -/
abbrev op9 : HloOp τ sig (Elt F) :=
  unary main_v4 main_v5 (broadcastInDim S1024x1 ![0] bcast_S1024_S1024x1_0 : (⟨S1024, .f32⟩ : BufTy).Contents (Elt F) → (⟨S1024x1, .f32⟩ : BufTy).Contents (Elt F))

/-- What the buffers that are read later hold after operation 9. -/
abbrev P9 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_v5) = val_main_v5 (F := F) x1

theorem step9 (W : Valuation τ sig (Elt F)) (h : P8 x0 x1 W) :
    P9 x0 x1 ((op9 (F := F)).result W) := by
  obtain ⟨h_main_arg0, h_main_arg1, h_main_v1, h_main_v4⟩ := h
  exact ⟨(unary_result_ne _ _ _ _ _ W (by decide)).trans h_main_arg0,
    (unary_result_ne _ _ _ _ _ W (by decide)).trans h_main_arg1,
    (unary_result_ne _ _ _ _ _ W (by decide)).trans h_main_v1,
    (unary_result _ _ _ _ _ W).trans (by rw [h_main_v4] <;> rfl)⟩

/-- Operation 10. -/
abbrev op10 : HloOp τ sig (Elt F) :=
  unary main_v5 main_v6 (broadcastInDim S1024x100000 ![0, 1] bcast_S1024x1_S1024x100000_0_1 : (⟨S1024x1, .f32⟩ : BufTy).Contents (Elt F) → (⟨S1024x100000, .f32⟩ : BufTy).Contents (Elt F))

/-- What the buffers that are read later hold after operation 10. -/
abbrev P10 (W : Valuation τ sig (Elt F)) : Prop :=
  W (Proc.devRef .tc main_arg0) = x0 ∧
  W (Proc.devRef .tc main_arg1) = x1 ∧
  W (Proc.devRef .tc main_v1) = val_main_v1 (F := F) x1 ∧
  W (Proc.devRef .tc main_v6) = val_main_v6 (F := F) x1

theorem step10 (W : Valuation τ sig (Elt F)) (h : P9 x0 x1 W) :
    P10 x0 x1 ((op10 (F := F)).result W) := by
  obtain ⟨h_main_arg0, h_main_arg1, h_main_v1, h_main_v5⟩ := h
  exact ⟨(unary_result_ne _ _ _ _ _ W (by decide)).trans h_main_arg0,
    (unary_result_ne _ _ _ _ _ W (by decide)).trans h_main_arg1,
    (unary_result_ne _ _ _ _ _ W (by decide)).trans h_main_v1,
    (unary_result _ _ _ _ _ W).trans (by rw [h_main_v5] <;> rfl)⟩

/-- Operation 11. -/
abbrev op11 : HloOp τ sig (Elt F) :=
  binary main_v1 main_v6 main_v7 (subf : (⟨S1024x100000, .f32⟩ : BufTy).Contents (Elt F) → (⟨S1024x100000, .f32⟩ : BufTy).Contents (Elt F) → (⟨S1024x100000, .f32⟩ : BufTy).Contents (Elt F))

/-- What the buffers that are read later hold after operation 11. -/
abbrev P11 (W : Valuation τ sig (Elt F)) : Prop :=
  W (Proc.devRef .tc main_arg0) = x0 ∧
  W (Proc.devRef .tc main_arg1) = x1 ∧
  W (Proc.devRef .tc main_v7) = val_main_v7 (F := F) x1

theorem step11 (W : Valuation τ sig (Elt F)) (h : P10 x0 x1 W) :
    P11 x0 x1 ((op11 (F := F)).result W) := by
  obtain ⟨h_main_arg0, h_main_arg1, h_main_v1, h_main_v6⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_v1, h_main_v6] <;> rfl)⟩

/-- Operation 12. -/
abbrev op12 : HloOp τ sig (Elt F) :=
  unary main_v7 main_v8 (Host.exp : (⟨S1024x100000, .f32⟩ : BufTy).Contents (Elt F) → (⟨S1024x100000, .f32⟩ : BufTy).Contents (Elt F))

/-- What the buffers that are read later hold after operation 12. -/
abbrev P12 (W : Valuation τ sig (Elt F)) : Prop :=
  W (Proc.devRef .tc main_arg0) = x0 ∧
  W (Proc.devRef .tc main_arg1) = x1 ∧
  W (Proc.devRef .tc main_v8) = val_main_v8 (F := F) x1

theorem step12 (W : Valuation τ sig (Elt F)) (h : P11 x0 x1 W) :
    P12 x0 x1 ((op12 (F := F)).result W) := by
  obtain ⟨h_main_arg0, h_main_arg1, h_main_v7⟩ := h
  exact ⟨(unary_result_ne _ _ _ _ _ W (by decide)).trans h_main_arg0,
    (unary_result_ne _ _ _ _ _ W (by decide)).trans h_main_arg1,
    (unary_result _ _ _ _ _ W).trans (by rw [h_main_v7] <;> rfl)⟩

/-- Operation 13. -/
abbrev op13 : HloOp τ sig (Elt F) :=
  nullary main_cst_2 (constant S_ .f32 0x00000000#32)

/-- What the buffers that are read later hold after operation 13. -/
abbrev P13 (W : Valuation τ sig (Elt F)) : Prop :=
  W (Proc.devRef .tc main_arg0) = x0 ∧
  W (Proc.devRef .tc main_arg1) = x1 ∧
  W (Proc.devRef .tc main_v8) = val_main_v8 (F := F) x1 ∧
  W (Proc.devRef .tc main_cst_2) = val_main_cst_2 (F := F)

theorem step13 (W : Valuation τ sig (Elt F)) (h : P12 x0 x1 W) :
    P13 x0 x1 ((op13 (F := F)).result W) := by
  obtain ⟨h_main_arg0, h_main_arg1, h_main_v8⟩ := h
  exact ⟨(nullary_result_ne _ _ _ W (by decide)).trans h_main_arg0,
    (nullary_result_ne _ _ _ W (by decide)).trans h_main_arg1,
    (nullary_result_ne _ _ _ W (by decide)).trans h_main_v8,
    (nullary_result _ _ _ W).trans rfl⟩

/-- Operation 14. -/
abbrev op14 : HloOp τ sig (Elt F) :=
  binary main_v8 main_cst_2 main_v9 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F))

/-- What the buffers that are read later hold after operation 14. -/
abbrev P14 (W : Valuation τ sig (Elt F)) : Prop :=
  W (Proc.devRef .tc main_arg0) = x0 ∧
  W (Proc.devRef .tc main_arg1) = x1 ∧
  W (Proc.devRef .tc main_v8) = val_main_v8 (F := F) x1 ∧
  W (Proc.devRef .tc main_v9) = val_main_v9 (F := F) x1

theorem step14 (W : Valuation τ sig (Elt F)) (h : P13 x0 x1 W) :
    P14 x0 x1 ((op14 (F := F)).result W) := by
  obtain ⟨h_main_arg0, h_main_arg1, h_main_v8, h_main_cst_2⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v8,
    (binary_result _ _ _ _ _ _ _ W).trans (by rw [h_main_v8, h_main_cst_2] <;> rfl)⟩

/-- Operation 15. -/
abbrev op15 : HloOp τ sig (Elt F) :=
  unary main_v9 main_v10 (broadcastInDim S1024x1 ![0] bcast_S1024_S1024x1_0 : (⟨S1024, .f32⟩ : BufTy).Contents (Elt F) → (⟨S1024x1, .f32⟩ : BufTy).Contents (Elt F))

/-- What the buffers that are read later hold after operation 15. -/
abbrev P15 (W : Valuation τ sig (Elt F)) : Prop :=
  W (Proc.devRef .tc main_arg0) = x0 ∧
  W (Proc.devRef .tc main_arg1) = x1 ∧
  W (Proc.devRef .tc main_v8) = val_main_v8 (F := F) x1 ∧
  W (Proc.devRef .tc main_v10) = val_main_v10 (F := F) x1

theorem step15 (W : Valuation τ sig (Elt F)) (h : P14 x0 x1 W) :
    P15 x0 x1 ((op15 (F := F)).result W) := by
  obtain ⟨h_main_arg0, h_main_arg1, h_main_v8, h_main_v9⟩ := h
  exact ⟨(unary_result_ne _ _ _ _ _ W (by decide)).trans h_main_arg0,
    (unary_result_ne _ _ _ _ _ W (by decide)).trans h_main_arg1,
    (unary_result_ne _ _ _ _ _ W (by decide)).trans h_main_v8,
    (unary_result _ _ _ _ _ W).trans (by rw [h_main_v9] <;> rfl)⟩

/-- Operation 16. -/
abbrev op16 : HloOp τ sig (Elt F) :=
  unary main_v10 main_v11 (broadcastInDim S1024x100000 ![0, 1] bcast_S1024x1_S1024x100000_0_1 : (⟨S1024x1, .f32⟩ : BufTy).Contents (Elt F) → (⟨S1024x100000, .f32⟩ : BufTy).Contents (Elt F))

/-- What the buffers that are read later hold after operation 16. -/
abbrev P16 (W : Valuation τ sig (Elt F)) : Prop :=
  W (Proc.devRef .tc main_arg0) = x0 ∧
  W (Proc.devRef .tc main_arg1) = x1 ∧
  W (Proc.devRef .tc main_v8) = val_main_v8 (F := F) x1 ∧
  W (Proc.devRef .tc main_v11) = val_main_v11 (F := F) x1

theorem step16 (W : Valuation τ sig (Elt F)) (h : P15 x0 x1 W) :
    P16 x0 x1 ((op16 (F := F)).result W) := by
  obtain ⟨h_main_arg0, h_main_arg1, h_main_v8, h_main_v10⟩ := h
  exact ⟨(unary_result_ne _ _ _ _ _ W (by decide)).trans h_main_arg0,
    (unary_result_ne _ _ _ _ _ W (by decide)).trans h_main_arg1,
    (unary_result_ne _ _ _ _ _ W (by decide)).trans h_main_v8,
    (unary_result _ _ _ _ _ W).trans (by rw [h_main_v10] <;> rfl)⟩

/-- Operation 17. -/
abbrev op17 : HloOp τ sig (Elt F) :=
  binary main_v8 main_v11 main_v12 (Host.divf : (⟨S1024x100000, .f32⟩ : BufTy).Contents (Elt F) → (⟨S1024x100000, .f32⟩ : BufTy).Contents (Elt F) → (⟨S1024x100000, .f32⟩ : BufTy).Contents (Elt F))

/-- What the buffers that are read later hold after operation 17. -/
abbrev P17 (W : Valuation τ sig (Elt F)) : Prop :=
  W (Proc.devRef .tc main_arg0) = x0 ∧
  W (Proc.devRef .tc main_arg1) = x1 ∧
  W (Proc.devRef .tc main_v12) = val_main_v12 (F := F) x1

theorem step17 (W : Valuation τ sig (Elt F)) (h : P16 x0 x1 W) :
    P17 x0 x1 ((op17 (F := F)).result W) := by
  obtain ⟨h_main_arg0, h_main_arg1, h_main_v8, h_main_v11⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_v8, h_main_v11] <;> rfl)⟩

/-- Operation 18. -/
abbrev op18 : HloOp τ sig (Elt F) :=
  nullary main_cst_3 (constant S_ .f32 0x3F800000#32)

/-- What the buffers that are read later hold after operation 18. -/
abbrev P18 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_cst_3) = val_main_cst_3 (F := F)

theorem step18 (W : Valuation τ sig (Elt F)) (h : P17 x0 x1 W) :
    P18 x0 x1 ((op18 (F := F)).result W) := by
  obtain ⟨h_main_arg0, h_main_arg1, h_main_v12⟩ := h
  exact ⟨(nullary_result_ne _ _ _ W (by decide)).trans h_main_arg0,
    (nullary_result_ne _ _ _ W (by decide)).trans h_main_arg1,
    (nullary_result_ne _ _ _ W (by decide)).trans h_main_v12,
    (nullary_result _ _ _ W).trans rfl⟩

/-- Operation 19. -/
abbrev op19 : HloOp τ sig (Elt F) :=
  unary main_cst_3 main_v13 (broadcastInDim S1024x100000 ![] bcast_S_S1024x100000 : (⟨S_, .f32⟩ : BufTy).Contents (Elt F) → (⟨S1024x100000, .f32⟩ : BufTy).Contents (Elt F))

/-- What the buffers that are read later hold after operation 19. -/
abbrev P19 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v13) = val_main_v13 (F := F)

theorem step19 (W : Valuation τ sig (Elt F)) (h : P18 x0 x1 W) :
    P19 x0 x1 ((op19 (F := F)).result W) := by
  obtain ⟨h_main_arg0, h_main_arg1, h_main_v12, h_main_cst_3⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result _ _ _ _ _ W).trans (by rw [h_main_cst_3] <;> rfl)⟩

/-- Operation 20. -/
abbrev op20 : HloOp τ sig (Elt F) :=
  binary main_arg0 main_v13 main_v14 (Host.divf : (⟨S1024x100000, .f32⟩ : BufTy).Contents (Elt F) → (⟨S1024x100000, .f32⟩ : BufTy).Contents (Elt F) → (⟨S1024x100000, .f32⟩ : BufTy).Contents (Elt F))

/-- What the buffers that are read later hold after operation 20. -/
abbrev P20 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0

theorem step20 (W : Valuation τ sig (Elt F)) (h : P19 x0 x1 W) :
    P20 x0 x1 ((op20 (F := F)).result W) := by
  obtain ⟨h_main_arg0, h_main_arg1, h_main_v12, h_main_v13⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result _ _ _ _ _ _ _ W).trans (by rw [h_main_arg0, h_main_v13] <;> rfl)⟩

/-- Operation 21. -/
abbrev op21 : HloOp τ sig (Elt F) :=
  TRef.nullary (TRef.of (T := ⟨S_, .f32⟩) main_call0_cst) (constant S_ .f32 0xFF800000#32)

/-- What the buffers that are read later hold after operation 21. -/
abbrev P21 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_cst) = val_main_call0_cst (F := F)

theorem step21 (W : Valuation τ sig (Elt F)) (h : P20 x0 x1 W) :
    P21 x0 x1 ((op21 (F := F)).result W) := by
  obtain ⟨h_main_arg0, h_main_arg1, h_main_v12, h_main_v14⟩ := h
  exact ⟨(nullary_result_ne _ _ _ W (by decide)).trans h_main_arg0,
    (nullary_result_ne _ _ _ W (by decide)).trans h_main_arg1,
    (nullary_result_ne _ _ _ W (by decide)).trans h_main_v12,
    (nullary_result_ne _ _ _ W (by decide)).trans h_main_v14,
    (nullary_result _ _ _ W).trans rfl⟩

/-- Operation 22. -/
abbrev op22 : HloOp τ sig (Elt F) :=
  TRef.binary (TRef.of (T := ⟨S1024x100000, .f32⟩) main_v14) (TRef.of (T := ⟨S_, .f32⟩) main_call0_cst) (TRef.of (T := ⟨S1024, .f32⟩) main_call0_v0) (fun x v => Host.reduce FloatOps.maximumf x v reducesTo_S1024x100000_S1024_d1 h_S_)

/-- What the buffers that are read later hold after operation 22. -/
abbrev P22 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_v0) = val_main_call0_v0 (F := F) x0

theorem step22 (W : Valuation τ sig (Elt F)) (h : P21 x0 x1 W) :
    P22 x0 x1 ((op22 (F := F)).result W) := by
  obtain ⟨h_main_arg0, h_main_arg1, h_main_v12, h_main_v14, h_main_call0_cst⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_v14,
    (binary_result _ _ _ _ _ _ _ W).trans (eq_of_heq (tbinary_heq (Val := Elt F) (TRef.of (T := ⟨S1024x100000, .f32⟩) main_v14) (TRef.of (T := ⟨S_, .f32⟩) main_call0_cst) (TRef.of (T := ⟨S1024, .f32⟩) main_call0_v0)
      (fun x v => Host.reduce FloatOps.maximumf x v reducesTo_S1024x100000_S1024_d1 h_S_) (heq_of_eq h_main_v14) (heq_of_eq h_main_call0_cst)))⟩

/-- Operation 23. -/
abbrev op23 : HloOp τ sig (Elt F) :=
  TRef.nullary (TRef.of (T := ⟨S_, .f32⟩) main_call0_cst_0) (constant S_ .f32 0xFF800000#32)

/-- What the buffers that are read later hold after operation 23. -/
abbrev P23 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_v0) = val_main_call0_v0 (F := F) x0 ∧
  W (Proc.devRef .tc main_call0_cst_0) = val_main_call0_cst_0 (F := F)

theorem step23 (W : Valuation τ sig (Elt F)) (h : P22 x0 x1 W) :
    P23 x0 x1 ((op23 (F := F)).result W) := by
  obtain ⟨h_main_arg0, h_main_arg1, h_main_v12, h_main_v14, h_main_call0_v0⟩ := h
  exact ⟨(nullary_result_ne _ _ _ W (by decide)).trans h_main_arg0,
    (nullary_result_ne _ _ _ W (by decide)).trans h_main_arg1,
    (nullary_result_ne _ _ _ W (by decide)).trans h_main_v12,
    (nullary_result_ne _ _ _ W (by decide)).trans h_main_v14,
    (nullary_result_ne _ _ _ W (by decide)).trans h_main_call0_v0,
    (nullary_result _ _ _ W).trans rfl⟩

/-- Operation 24. -/
abbrev op24 : HloOp τ sig (Elt F) :=
  TRef.unary (TRef.of (T := ⟨S_, .f32⟩) main_call0_cst_0) (TRef.of (T := ⟨S1024, .f32⟩) main_call0_v1) (broadcastInDim S1024 ![] bcast_S_S1024)

/-- What the buffers that are read later hold after operation 24. -/
abbrev P24 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_v0) = val_main_call0_v0 (F := F) x0 ∧
  W (Proc.devRef .tc main_call0_v1) = val_main_call0_v1 (F := F)

theorem step24 (W : Valuation τ sig (Elt F)) (h : P23 x0 x1 W) :
    P24 x0 x1 ((op24 (F := F)).result W) := by
  obtain ⟨h_main_arg0, h_main_arg1, h_main_v12, h_main_v14, h_main_call0_v0, h_main_call0_cst_0⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_v14,
    (unary_result_ne _ _ _ _ _ W (by decide)).trans h_main_call0_v0,
    (unary_result _ _ _ _ _ W).trans (eq_of_heq (tunary_heq (Val := Elt F) (TRef.of (T := ⟨S_, .f32⟩) main_call0_cst_0) (TRef.of (T := ⟨S1024, .f32⟩) main_call0_v1)
      (broadcastInDim S1024 ![] bcast_S_S1024) (heq_of_eq h_main_call0_cst_0)))⟩

/-- Operation 25. -/
abbrev op25 : HloOp τ sig (Elt F) :=
  TRef.binary (TRef.of (T := ⟨S1024, .f32⟩) main_call0_v1) (TRef.of (T := ⟨S1024, .f32⟩) main_call0_v0) (TRef.of (T := ⟨S1024, .f32⟩) main_call0_v2) maximumf

/-- What the buffers that are read later hold after operation 25. -/
abbrev P25 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_v2) = val_main_call0_v2 (F := F) x0

theorem step25 (W : Valuation τ sig (Elt F)) (h : P24 x0 x1 W) :
    P25 x0 x1 ((op25 (F := F)).result W) := by
  obtain ⟨h_main_arg0, h_main_arg1, h_main_v12, h_main_v14, h_main_call0_v0, h_main_call0_v1⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_v14,
    (binary_result _ _ _ _ _ _ _ W).trans (eq_of_heq (tbinary_heq (Val := Elt F) (TRef.of (T := ⟨S1024, .f32⟩) main_call0_v1) (TRef.of (T := ⟨S1024, .f32⟩) main_call0_v0) (TRef.of (T := ⟨S1024, .f32⟩) main_call0_v2)
      (maximumf) (heq_of_eq h_main_call0_v1) (heq_of_eq h_main_call0_v0)))⟩

/-- Operation 26. -/
abbrev op26 : HloOp τ sig (Elt F) :=
  TRef.unary (TRef.of (T := ⟨S1024, .f32⟩) main_call0_v2) (TRef.of (T := ⟨S1024x1, .f32⟩) main_call0_v3) (broadcastInDim S1024x1 ![0] bcast_S1024_S1024x1_0)

/-- What the buffers that are read later hold after operation 26. -/
abbrev P26 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_v3) = val_main_call0_v3 (F := F) x0

theorem step26 (W : Valuation τ sig (Elt F)) (h : P25 x0 x1 W) :
    P26 x0 x1 ((op26 (F := F)).result W) := by
  obtain ⟨h_main_arg0, h_main_arg1, h_main_v12, h_main_v14, h_main_call0_v2⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_v14,
    (unary_result _ _ _ _ _ W).trans (eq_of_heq (tunary_heq (Val := Elt F) (TRef.of (T := ⟨S1024, .f32⟩) main_call0_v2) (TRef.of (T := ⟨S1024x1, .f32⟩) main_call0_v3)
      (broadcastInDim S1024x1 ![0] bcast_S1024_S1024x1_0) (heq_of_eq h_main_call0_v2)))⟩

/-- Operation 27. -/
abbrev op27 : HloOp τ sig (Elt F) :=
  TRef.unary (TRef.of (T := ⟨S1024x1, .f32⟩) main_call0_v3) (TRef.of (T := ⟨S1024x100000, .f32⟩) main_call0_v4) (broadcastInDim S1024x100000 ![0, 1] bcast_S1024x1_S1024x100000_0_1)

/-- What the buffers that are read later hold after operation 27. -/
abbrev P27 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v14) = val_main_v14 (F := F) x0 ∧
  W (Proc.devRef .tc main_call0_v4) = val_main_call0_v4 (F := F) x0

theorem step27 (W : Valuation τ sig (Elt F)) (h : P26 x0 x1 W) :
    P27 x0 x1 ((op27 (F := F)).result W) := by
  obtain ⟨h_main_arg0, h_main_arg1, h_main_v12, h_main_v14, h_main_call0_v3⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_v14,
    (unary_result _ _ _ _ _ W).trans (eq_of_heq (tunary_heq (Val := Elt F) (TRef.of (T := ⟨S1024x1, .f32⟩) main_call0_v3) (TRef.of (T := ⟨S1024x100000, .f32⟩) main_call0_v4)
      (broadcastInDim S1024x100000 ![0, 1] bcast_S1024x1_S1024x100000_0_1) (heq_of_eq h_main_call0_v3)))⟩

/-- Operation 28. -/
abbrev op28 : HloOp τ sig (Elt F) :=
  TRef.binary (TRef.of (T := ⟨S1024x100000, .f32⟩) main_v14) (TRef.of (T := ⟨S1024x100000, .f32⟩) main_call0_v4) (TRef.of (T := ⟨S1024x100000, .f32⟩) main_call0_v5) subf

/-- What the buffers that are read later hold after operation 28. -/
abbrev P28 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0

theorem step28 (W : Valuation τ sig (Elt F)) (h : P27 x0 x1 W) :
    P28 x0 x1 ((op28 (F := F)).result W) := by
  obtain ⟨h_main_arg0, h_main_arg1, h_main_v12, h_main_v14, h_main_call0_v4⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result _ _ _ _ _ _ _ W).trans (eq_of_heq (tbinary_heq (Val := Elt F) (TRef.of (T := ⟨S1024x100000, .f32⟩) main_v14) (TRef.of (T := ⟨S1024x100000, .f32⟩) main_call0_v4) (TRef.of (T := ⟨S1024x100000, .f32⟩) main_call0_v5)
      (subf) (heq_of_eq h_main_v14) (heq_of_eq h_main_call0_v4)))⟩

/-- Operation 29. -/
abbrev op29 : HloOp τ sig (Elt F) :=
  TRef.unary (TRef.of (T := ⟨S1024x100000, .f32⟩) main_call0_v5) (TRef.of (T := ⟨S1024x100000, .f32⟩) main_call0_v6) Host.exp

/-- What the buffers that are read later hold after operation 29. -/
abbrev P29 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0 ∧
  W (Proc.devRef .tc main_call0_v6) = val_main_call0_v6 (F := F) x0

theorem step29 (W : Valuation τ sig (Elt F)) (h : P28 x0 x1 W) :
    P29 x0 x1 ((op29 (F := F)).result W) := by
  obtain ⟨h_main_arg0, h_main_arg1, h_main_v12, h_main_call0_v5⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_call0_v5,
    (unary_result _ _ _ _ _ W).trans (eq_of_heq (tunary_heq (Val := Elt F) (TRef.of (T := ⟨S1024x100000, .f32⟩) main_call0_v5) (TRef.of (T := ⟨S1024x100000, .f32⟩) main_call0_v6)
      (Host.exp) (heq_of_eq h_main_call0_v5)))⟩

/-- Operation 30. -/
abbrev op30 : HloOp τ sig (Elt F) :=
  TRef.nullary (TRef.of (T := ⟨S_, .f32⟩) main_call0_cst_1) (constant S_ .f32 0x00000000#32)

/-- What the buffers that are read later hold after operation 30. -/
abbrev P30 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0 ∧
  W (Proc.devRef .tc main_call0_v6) = val_main_call0_v6 (F := F) x0 ∧
  W (Proc.devRef .tc main_call0_cst_1) = val_main_call0_cst_1 (F := F)

theorem step30 (W : Valuation τ sig (Elt F)) (h : P29 x0 x1 W) :
    P30 x0 x1 ((op30 (F := F)).result W) := by
  obtain ⟨h_main_arg0, h_main_arg1, h_main_v12, h_main_call0_v5, h_main_call0_v6⟩ := h
  exact ⟨(nullary_result_ne _ _ _ W (by decide)).trans h_main_arg0,
    (nullary_result_ne _ _ _ W (by decide)).trans h_main_arg1,
    (nullary_result_ne _ _ _ W (by decide)).trans h_main_v12,
    (nullary_result_ne _ _ _ W (by decide)).trans h_main_call0_v5,
    (nullary_result_ne _ _ _ W (by decide)).trans h_main_call0_v6,
    (nullary_result _ _ _ W).trans rfl⟩

/-- Operation 31. -/
abbrev op31 : HloOp τ sig (Elt F) :=
  TRef.binary (TRef.of (T := ⟨S1024x100000, .f32⟩) main_call0_v6) (TRef.of (T := ⟨S_, .f32⟩) main_call0_cst_1) (TRef.of (T := ⟨S1024, .f32⟩) main_call0_v7) (fun x v => Host.reduceAdd x v reducesTo_S1024x100000_S1024_d1 h_S_)

/-- What the buffers that are read later hold after operation 31. -/
abbrev P31 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0 ∧
  W (Proc.devRef .tc main_call0_v7) = val_main_call0_v7 (F := F) x0

theorem step31 (W : Valuation τ sig (Elt F)) (h : P30 x0 x1 W) :
    P31 x0 x1 ((op31 (F := F)).result W) := by
  obtain ⟨h_main_arg0, h_main_arg1, h_main_v12, h_main_call0_v5, h_main_call0_v6, h_main_call0_cst_1⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_call0_v5,
    (binary_result _ _ _ _ _ _ _ W).trans (eq_of_heq (tbinary_heq (Val := Elt F) (TRef.of (T := ⟨S1024x100000, .f32⟩) main_call0_v6) (TRef.of (T := ⟨S_, .f32⟩) main_call0_cst_1) (TRef.of (T := ⟨S1024, .f32⟩) main_call0_v7)
      (fun x v => Host.reduceAdd x v reducesTo_S1024x100000_S1024_d1 h_S_) (heq_of_eq h_main_call0_v6) (heq_of_eq h_main_call0_cst_1)))⟩

/-- Operation 32. -/
abbrev op32 : HloOp τ sig (Elt F) :=
  TRef.unary (TRef.of (T := ⟨S1024, .f32⟩) main_call0_v7) (TRef.of (T := ⟨S1024x1, .f32⟩) main_call0_v8) (broadcastInDim S1024x1 ![0] bcast_S1024_S1024x1_0)

/-- What the buffers that are read later hold after operation 32. -/
abbrev P32 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0 ∧
  W (Proc.devRef .tc main_call0_v8) = val_main_call0_v8 (F := F) x0

theorem step32 (W : Valuation τ sig (Elt F)) (h : P31 x0 x1 W) :
    P32 x0 x1 ((op32 (F := F)).result W) := by
  obtain ⟨h_main_arg0, h_main_arg1, h_main_v12, h_main_call0_v5, h_main_call0_v7⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_call0_v5,
    (unary_result _ _ _ _ _ W).trans (eq_of_heq (tunary_heq (Val := Elt F) (TRef.of (T := ⟨S1024, .f32⟩) main_call0_v7) (TRef.of (T := ⟨S1024x1, .f32⟩) main_call0_v8)
      (broadcastInDim S1024x1 ![0] bcast_S1024_S1024x1_0) (heq_of_eq h_main_call0_v7)))⟩

/-- Operation 33. -/
abbrev op33 : HloOp τ sig (Elt F) :=
  TRef.unary (TRef.of (T := ⟨S1024x1, .f32⟩) main_call0_v8) (TRef.of (T := ⟨S1024x1, .f32⟩) main_call0_v9) Host.log

/-- What the buffers that are read later hold after operation 33. -/
abbrev P33 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0 ∧
  W (Proc.devRef .tc main_call0_v9) = val_main_call0_v9 (F := F) x0

theorem step33 (W : Valuation τ sig (Elt F)) (h : P32 x0 x1 W) :
    P33 x0 x1 ((op33 (F := F)).result W) := by
  obtain ⟨h_main_arg0, h_main_arg1, h_main_v12, h_main_call0_v5, h_main_call0_v8⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_call0_v5,
    (unary_result _ _ _ _ _ W).trans (eq_of_heq (tunary_heq (Val := Elt F) (TRef.of (T := ⟨S1024x1, .f32⟩) main_call0_v8) (TRef.of (T := ⟨S1024x1, .f32⟩) main_call0_v9)
      (Host.log) (heq_of_eq h_main_call0_v8)))⟩

/-- Operation 34. -/
abbrev op34 : HloOp τ sig (Elt F) :=
  TRef.unary (TRef.of (T := ⟨S1024x1, .f32⟩) main_call0_v9) (TRef.of (T := ⟨S1024x100000, .f32⟩) main_call0_v10) (broadcastInDim S1024x100000 ![0, 1] bcast_S1024x1_S1024x100000_0_1)

/-- What the buffers that are read later hold after operation 34. -/
abbrev P34 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_call0_v5) = val_main_call0_v5 (F := F) x0 ∧
  W (Proc.devRef .tc main_call0_v10) = val_main_call0_v10 (F := F) x0

theorem step34 (W : Valuation τ sig (Elt F)) (h : P33 x0 x1 W) :
    P34 x0 x1 ((op34 (F := F)).result W) := by
  obtain ⟨h_main_arg0, h_main_arg1, h_main_v12, h_main_call0_v5, h_main_call0_v9⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_call0_v5,
    (unary_result _ _ _ _ _ W).trans (eq_of_heq (tunary_heq (Val := Elt F) (TRef.of (T := ⟨S1024x1, .f32⟩) main_call0_v9) (TRef.of (T := ⟨S1024x100000, .f32⟩) main_call0_v10)
      (broadcastInDim S1024x100000 ![0, 1] bcast_S1024x1_S1024x100000_0_1) (heq_of_eq h_main_call0_v9)))⟩

/-- Operation 35. -/
abbrev op35 : HloOp τ sig (Elt F) :=
  TRef.binary (TRef.of (T := ⟨S1024x100000, .f32⟩) main_call0_v5) (TRef.of (T := ⟨S1024x100000, .f32⟩) main_call0_v10) (TRef.of (T := ⟨S1024x100000, .f32⟩) main_v15) subf

/-- What the buffers that are read later hold after operation 35. -/
abbrev P35 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0

theorem step35 (W : Valuation τ sig (Elt F)) (h : P34 x0 x1 W) :
    P35 x0 x1 ((op35 (F := F)).result W) := by
  obtain ⟨h_main_arg0, h_main_arg1, h_main_v12, h_main_call0_v5, h_main_call0_v10⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result _ _ _ _ _ _ _ W).trans (eq_of_heq (tbinary_heq (Val := Elt F) (TRef.of (T := ⟨S1024x100000, .f32⟩) main_call0_v5) (TRef.of (T := ⟨S1024x100000, .f32⟩) main_call0_v10) (TRef.of (T := ⟨S1024x100000, .f32⟩) main_v15)
      (subf) (heq_of_eq h_main_call0_v5) (heq_of_eq h_main_call0_v10)))⟩

/-- Operation 36. -/
abbrev op36 : HloOp τ sig (Elt F) :=
  nullary main_cst_4 (constant S_ .f32 0x00000000#32)

/-- What the buffers that are read later hold after operation 36. -/
abbrev P36 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_cst_4) = val_main_cst_4 (F := F)

theorem step36 (W : Valuation τ sig (Elt F)) (h : P35 x0 x1 W) :
    P36 x0 x1 ((op36 (F := F)).result W) := by
  obtain ⟨h_main_arg0, h_main_arg1, h_main_v12, h_main_v15⟩ := h
  exact ⟨(nullary_result_ne _ _ _ W (by decide)).trans h_main_arg0,
    (nullary_result_ne _ _ _ W (by decide)).trans h_main_arg1,
    (nullary_result_ne _ _ _ W (by decide)).trans h_main_v12,
    (nullary_result_ne _ _ _ W (by decide)).trans h_main_v15,
    (nullary_result _ _ _ W).trans rfl⟩

/-- Operation 37. -/
abbrev op37 : HloOp τ sig (Elt F) :=
  unary main_cst_4 main_v16 (broadcastInDim S1024x100000 ![] bcast_S_S1024x100000 : (⟨S_, .f32⟩ : BufTy).Contents (Elt F) → (⟨S1024x100000, .f32⟩ : BufTy).Contents (Elt F))

/-- What the buffers that are read later hold after operation 37. -/
abbrev P37 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v16) = val_main_v16 (F := F)

theorem step37 (W : Valuation τ sig (Elt F)) (h : P36 x0 x1 W) :
    P37 x0 x1 ((op37 (F := F)).result W) := by
  obtain ⟨h_main_arg0, h_main_arg1, h_main_v12, h_main_v15, h_main_cst_4⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_v15,
    (unary_result _ _ _ _ _ W).trans (by rw [h_main_cst_4] <;> rfl)⟩

/-- Operation 38. -/
abbrev op38 : HloOp τ sig (Elt F) :=
  binary main_v12 main_v16 main_v17 (cmpf .une : (⟨S1024x100000, .f32⟩ : BufTy).Contents (Elt F) → (⟨S1024x100000, .f32⟩ : BufTy).Contents (Elt F) → (⟨S1024x100000, .i1⟩ : BufTy).Contents (Elt F))

/-- What the buffers that are read later hold after operation 38. -/
abbrev P38 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v17) = val_main_v17 (F := F) x1

theorem step38 (W : Valuation τ sig (Elt F)) (h : P37 x0 x1 W) :
    P38 x0 x1 ((op38 (F := F)).result W) := by
  obtain ⟨h_main_arg0, h_main_arg1, h_main_v12, h_main_v15, h_main_v16⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_v15,
    (binary_result _ _ _ _ _ _ _ W).trans (by rw [h_main_v12, h_main_v16] <;> rfl)⟩

/-- Operation 39. -/
abbrev op39 : HloOp τ sig (Elt F) :=
  binary main_v12 main_v12 main_v18 (cmpf .une : (⟨S1024x100000, .f32⟩ : BufTy).Contents (Elt F) → (⟨S1024x100000, .f32⟩ : BufTy).Contents (Elt F) → (⟨S1024x100000, .i1⟩ : BufTy).Contents (Elt F))

/-- What the buffers that are read later hold after operation 39. -/
abbrev P39 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v17) = val_main_v17 (F := F) x1 ∧
  W (Proc.devRef .tc main_v18) = val_main_v18 (F := F) x1

theorem step39 (W : Valuation τ sig (Elt F)) (h : P38 x0 x1 W) :
    P39 x0 x1 ((op39 (F := F)).result W) := by
  obtain ⟨h_main_arg0, h_main_arg1, h_main_v12, h_main_v15, h_main_v17⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_v15,
    (binary_result_ne _ _ _ _ _ _ _ W (by decide)).trans h_main_v17,
    (binary_result _ _ _ _ _ _ _ W).trans (by rw [h_main_v12] <;> rfl)⟩

/-- Operation 40. -/
abbrev op40 : HloOp τ sig (Elt F) :=
  binary main_v17 main_v18 main_v19 (ori : (⟨S1024x100000, .i1⟩ : BufTy).Contents (Elt F) → (⟨S1024x100000, .i1⟩ : BufTy).Contents (Elt F) → (⟨S1024x100000, .i1⟩ : BufTy).Contents (Elt F))

/-- What the buffers that are read later hold after operation 40. -/
abbrev P40 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v19) = val_main_v19 (F := F) x1

theorem step40 (W : Valuation τ sig (Elt F)) (h : P39 x0 x1 W) :
    P40 x0 x1 ((op40 (F := F)).result W) := by
  obtain ⟨h_main_arg0, h_main_arg1, h_main_v12, h_main_v15, h_main_v17, h_main_v18⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_v15,
    (binary_result _ _ _ _ _ _ _ W).trans (by rw [h_main_v17, h_main_v18] <;> rfl)⟩

/-- Operation 41. -/
abbrev op41 : HloOp τ sig (Elt F) :=
  unary main_v12 main_v20 (Host.log : (⟨S1024x100000, .f32⟩ : BufTy).Contents (Elt F) → (⟨S1024x100000, .f32⟩ : BufTy).Contents (Elt F))

/-- What the buffers that are read later hold after operation 41. -/
abbrev P41 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v19) = val_main_v19 (F := F) x1 ∧
  W (Proc.devRef .tc main_v20) = val_main_v20 (F := F) x1

theorem step41 (W : Valuation τ sig (Elt F)) (h : P40 x0 x1 W) :
    P41 x0 x1 ((op41 (F := F)).result W) := by
  obtain ⟨h_main_arg0, h_main_arg1, h_main_v12, h_main_v15, h_main_v19⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_v15,
    (unary_result_ne _ _ _ _ _ W (by decide)).trans h_main_v19,
    (unary_result _ _ _ _ _ W).trans (by rw [h_main_v12] <;> rfl)⟩

/-- Operation 42. -/
abbrev op42 : HloOp τ sig (Elt F) :=
  binary main_v12 main_v20 main_v21 (mulf : (⟨S1024x100000, .f32⟩ : BufTy).Contents (Elt F) → (⟨S1024x100000, .f32⟩ : BufTy).Contents (Elt F) → (⟨S1024x100000, .f32⟩ : BufTy).Contents (Elt F))

/-- What the buffers that are read later hold after operation 42. -/
abbrev P42 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v19) = val_main_v19 (F := F) x1 ∧
  W (Proc.devRef .tc main_v21) = val_main_v21 (F := F) x1

theorem step42 (W : Valuation τ sig (Elt F)) (h : P41 x0 x1 W) :
    P42 x0 x1 ((op42 (F := F)).result W) := by
  obtain ⟨h_main_arg0, h_main_arg1, h_main_v12, h_main_v15, h_main_v19, h_main_v20⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v12,
    (binary_result_ne _ _ _ _ _ _ _ W (by decide)).trans h_main_v15,
    (binary_result_ne _ _ _ _ _ _ _ W (by decide)).trans h_main_v19,
    (binary_result _ _ _ _ _ _ _ W).trans (by rw [h_main_v12, h_main_v20] <;> rfl)⟩

/-- Operation 43. -/
abbrev op43 : HloOp τ sig (Elt F) :=
  nullary main_cst_5 (constant S_ .f32 0x00000000#32)

/-- What the buffers that are read later hold after operation 43. -/
abbrev P43 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v19) = val_main_v19 (F := F) x1 ∧
  W (Proc.devRef .tc main_v21) = val_main_v21 (F := F) x1 ∧
  W (Proc.devRef .tc main_cst_5) = val_main_cst_5 (F := F)

theorem step43 (W : Valuation τ sig (Elt F)) (h : P42 x0 x1 W) :
    P43 x0 x1 ((op43 (F := F)).result W) := by
  obtain ⟨h_main_arg0, h_main_arg1, h_main_v12, h_main_v15, h_main_v19, h_main_v21⟩ := h
  exact ⟨(nullary_result_ne _ _ _ W (by decide)).trans h_main_arg0,
    (nullary_result_ne _ _ _ W (by decide)).trans h_main_arg1,
    (nullary_result_ne _ _ _ W (by decide)).trans h_main_v12,
    (nullary_result_ne _ _ _ W (by decide)).trans h_main_v15,
    (nullary_result_ne _ _ _ W (by decide)).trans h_main_v19,
    (nullary_result_ne _ _ _ W (by decide)).trans h_main_v21,
    (nullary_result _ _ _ W).trans rfl⟩

/-- Operation 44. -/
abbrev op44 : HloOp τ sig (Elt F) :=
  unary main_cst_5 main_v22 (broadcastInDim S1024x100000 ![] bcast_S_S1024x100000 : (⟨S_, .f32⟩ : BufTy).Contents (Elt F) → (⟨S1024x100000, .f32⟩ : BufTy).Contents (Elt F))

/-- What the buffers that are read later hold after operation 44. -/
abbrev P44 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v19) = val_main_v19 (F := F) x1 ∧
  W (Proc.devRef .tc main_v21) = val_main_v21 (F := F) x1 ∧
  W (Proc.devRef .tc main_v22) = val_main_v22 (F := F)

theorem step44 (W : Valuation τ sig (Elt F)) (h : P43 x0 x1 W) :
    P44 x0 x1 ((op44 (F := F)).result W) := by
  obtain ⟨h_main_arg0, h_main_arg1, h_main_v12, h_main_v15, h_main_v19, h_main_v21, h_main_cst_5⟩ := h
  exact ⟨(unary_result_ne _ _ _ _ _ W (by decide)).trans h_main_arg0,
    (unary_result_ne _ _ _ _ _ W (by decide)).trans h_main_arg1,
    (unary_result_ne _ _ _ _ _ W (by decide)).trans h_main_v12,
    (unary_result_ne _ _ _ _ _ W (by decide)).trans h_main_v15,
    (unary_result_ne _ _ _ _ _ W (by decide)).trans h_main_v19,
    (unary_result_ne _ _ _ _ _ W (by decide)).trans h_main_v21,
    (unary_result _ _ _ _ _ W).trans (by rw [h_main_cst_5] <;> rfl)⟩

/-- Operation 45. -/
abbrev op45 : HloOp τ sig (Elt F) :=
  TRef.ternary (TRef.of (T := ⟨S1024x100000, .i1⟩) main_v19) (TRef.of (T := ⟨S1024x100000, .f32⟩) main_v21) (TRef.of (T := ⟨S1024x100000, .f32⟩) main_v22) (TRef.of (T := ⟨S1024x100000, .f32⟩) main_v23) select

/-- What the buffers that are read later hold after operation 45. -/
abbrev P45 (W : Valuation τ sig (Elt F)) : Prop :=
  W (Proc.devRef .tc main_arg0) = x0 ∧
  W (Proc.devRef .tc main_arg1) = x1 ∧
  W (Proc.devRef .tc main_v12) = val_main_v12 (F := F) x1 ∧
  W (Proc.devRef .tc main_v15) = val_main_v15 (F := F) x0 ∧
  W (Proc.devRef .tc main_v23) = val_main_v23 (F := F) x1

theorem step45 (W : Valuation τ sig (Elt F)) (h : P44 x0 x1 W) :
    P45 x0 x1 ((op45 (F := F)).result W) := by
  obtain ⟨h_main_arg0, h_main_arg1, h_main_v12, h_main_v15, h_main_v19, h_main_v21, h_main_v22⟩ := h
  exact ⟨(ternary_result_ne _ _ _ _ _ _ _ _ _ W (by decide)).trans h_main_arg0,
    (ternary_result_ne _ _ _ _ _ _ _ _ _ W (by decide)).trans h_main_arg1,
    (ternary_result_ne _ _ _ _ _ _ _ _ _ W (by decide)).trans h_main_v12,
    (ternary_result_ne _ _ _ _ _ _ _ _ _ W (by decide)).trans h_main_v15,
    (ternary_result _ _ _ _ _ _ _ _ _ W).trans (eq_of_heq (tternary_heq (Val := Elt F) (TRef.of (T := ⟨S1024x100000, .i1⟩) main_v19) (TRef.of (T := ⟨S1024x100000, .f32⟩) main_v21) (TRef.of (T := ⟨S1024x100000, .f32⟩) main_v22) (TRef.of (T := ⟨S1024x100000, .f32⟩) main_v23)
      (select) (heq_of_eq h_main_v19) (heq_of_eq h_main_v21) (heq_of_eq h_main_v22)))⟩

/-- Operation 46. -/
abbrev op46 : HloOp τ sig (Elt F) :=
  binary main_v12 main_v15 main_v24 (mulf : (⟨S1024x100000, .f32⟩ : BufTy).Contents (Elt F) → (⟨S1024x100000, .f32⟩ : BufTy).Contents (Elt F) → (⟨S1024x100000, .f32⟩ : BufTy).Contents (Elt F))

/-- What the buffers that are read later hold after operation 46. -/
abbrev P46 (W : Valuation τ sig (Elt F)) : Prop :=
  W (Proc.devRef .tc main_arg0) = x0 ∧
  W (Proc.devRef .tc main_arg1) = x1 ∧
  W (Proc.devRef .tc main_v23) = val_main_v23 (F := F) x1 ∧
  W (Proc.devRef .tc main_v24) = val_main_v24 (F := F) x0 x1

theorem step46 (W : Valuation τ sig (Elt F)) (h : P45 x0 x1 W) :
    P46 x0 x1 ((op46 (F := F)).result W) := by
  obtain ⟨h_main_arg0, h_main_arg1, h_main_v12, h_main_v15, h_main_v23⟩ := h
  exact ⟨(binary_result_ne _ _ _ _ _ _ _ W (by decide)).trans h_main_arg0,
    (binary_result_ne _ _ _ _ _ _ _ W (by decide)).trans h_main_arg1,
    (binary_result_ne _ _ _ _ _ _ _ W (by decide)).trans h_main_v23,
    (binary_result _ _ _ _ _ _ _ W).trans (by rw [h_main_v12, h_main_v15] <;> rfl)⟩

/-- Operation 47. -/
abbrev op47 : HloOp τ sig (Elt F) :=
  binary main_v23 main_v24 main_v25 (subf : (⟨S1024x100000, .f32⟩ : BufTy).Contents (Elt F) → (⟨S1024x100000, .f32⟩ : BufTy).Contents (Elt F) → (⟨S1024x100000, .f32⟩ : BufTy).Contents (Elt F))

/-- What the buffers that are read later hold after operation 47. -/
abbrev P47 (W : Valuation τ sig (Elt F)) : Prop :=
  W (Proc.devRef .tc main_arg0) = x0 ∧
  W (Proc.devRef .tc main_arg1) = x1 ∧
  W (Proc.devRef .tc main_v25) = val_main_v25 (F := F) x0 x1

theorem step47 (W : Valuation τ sig (Elt F)) (h : P46 x0 x1 W) :
    P47 x0 x1 ((op47 (F := F)).result W) := by
  obtain ⟨h_main_arg0, h_main_arg1, h_main_v23, h_main_v24⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_v23, h_main_v24] <;> rfl)⟩

/-- Operation 48. -/
abbrev op48 : HloOp τ sig (Elt F) :=
  nullary main_cst_6 (constant S_ .f32 0x00000000#32)

/-- What the buffers that are read later hold after operation 48. -/
abbrev P48 (W : Valuation τ sig (Elt F)) : Prop :=
  W (Proc.devRef .tc main_arg0) = x0 ∧
  W (Proc.devRef .tc main_arg1) = x1 ∧
  W (Proc.devRef .tc main_v25) = val_main_v25 (F := F) x0 x1 ∧
  W (Proc.devRef .tc main_cst_6) = val_main_cst_6 (F := F)

theorem step48 (W : Valuation τ sig (Elt F)) (h : P47 x0 x1 W) :
    P48 x0 x1 ((op48 (F := F)).result W) := by
  obtain ⟨h_main_arg0, h_main_arg1, h_main_v25⟩ := h
  exact ⟨(nullary_result_ne _ _ _ W (by decide)).trans h_main_arg0,
    (nullary_result_ne _ _ _ W (by decide)).trans h_main_arg1,
    (nullary_result_ne _ _ _ W (by decide)).trans h_main_v25,
    (nullary_result _ _ _ W).trans rfl⟩

/-- Operation 49. -/
abbrev op49 : HloOp τ sig (Elt F) :=
  binary main_v25 main_cst_6 main_v26 ((fun x v => Host.reduceAdd x v reducesTo_S1024x100000_S_d0_1 h_S_) : (⟨S1024x100000, .f32⟩ : BufTy).Contents (Elt F) → (⟨S_, .f32⟩ : BufTy).Contents (Elt F) → (⟨S_, .f32⟩ : BufTy).Contents (Elt F))

/-- What the buffers that are read later hold after operation 49. -/
abbrev P49 (W : Valuation τ sig (Elt F)) : Prop :=
  W (Proc.devRef .tc main_arg0) = x0 ∧
  W (Proc.devRef .tc main_arg1) = x1 ∧
  W (Proc.devRef .tc main_v26) = val_main_v26 (F := F) x0 x1

theorem step49 (W : Valuation τ sig (Elt F)) (h : P48 x0 x1 W) :
    P49 x0 x1 ((op49 (F := F)).result W) := by
  obtain ⟨h_main_arg0, h_main_arg1, h_main_v25, h_main_cst_6⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_v25, h_main_cst_6] <;> rfl)⟩

/-- Operation 50. -/
abbrev op50 : HloOp τ sig (Elt F) :=
  nullary main_cst_7 (constant S_ .f32 0x44800000#32)

/-- What the buffers that are read later hold after operation 50. -/
abbrev P50 (W : Valuation τ sig (Elt F)) : Prop :=
  W (Proc.devRef .tc main_arg0) = x0 ∧
  W (Proc.devRef .tc main_arg1) = x1 ∧
  W (Proc.devRef .tc main_v26) = val_main_v26 (F := F) x0 x1 ∧
  W (Proc.devRef .tc main_cst_7) = val_main_cst_7 (F := F)

theorem step50 (W : Valuation τ sig (Elt F)) (h : P49 x0 x1 W) :
    P50 x0 x1 ((op50 (F := F)).result W) := by
  obtain ⟨h_main_arg0, h_main_arg1, h_main_v26⟩ := h
  exact ⟨(nullary_result_ne _ _ _ W (by decide)).trans h_main_arg0,
    (nullary_result_ne _ _ _ W (by decide)).trans h_main_arg1,
    (nullary_result_ne _ _ _ W (by decide)).trans h_main_v26,
    (nullary_result _ _ _ W).trans rfl⟩

/-- Operation 51. -/
abbrev op51 : HloOp τ sig (Elt F) :=
  binary main_v26 main_cst_7 main_v27 (Host.divf : (⟨S_, .f32⟩ : BufTy).Contents (Elt F) → (⟨S_, .f32⟩ : BufTy).Contents (Elt F) → (⟨S_, .f32⟩ : BufTy).Contents (Elt F))

/-- What the buffers that are read later hold after operation 51. -/
abbrev P51 (W : Valuation τ sig (Elt F)) : Prop :=
  W (Proc.devRef .tc main_arg0) = x0 ∧
  W (Proc.devRef .tc main_arg1) = x1 ∧
  W (Proc.devRef .tc main_v27) = val_main_v27 (F := F) x0 x1

theorem step51 (W : Valuation τ sig (Elt F)) (h : P50 x0 x1 W) :
    P51 x0 x1 ((op51 (F := F)).result W) := by
  obtain ⟨h_main_arg0, h_main_arg1, h_main_v26, h_main_cst_7⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_v26, h_main_cst_7] <;> rfl)⟩

/-- Operation 52. -/
abbrev op52 : HloOp τ sig (Elt F) :=
  nullary main_cst_8 (constant S_ .f32 0x3F800000#32)

/-- What the buffers that are read later hold after operation 52. -/
abbrev P52 (W : Valuation τ sig (Elt F)) : Prop :=
  W (Proc.devRef .tc main_arg0) = x0 ∧
  W (Proc.devRef .tc main_arg1) = x1 ∧
  W (Proc.devRef .tc main_v27) = val_main_v27 (F := F) x0 x1 ∧
  W (Proc.devRef .tc main_cst_8) = val_main_cst_8 (F := F)

theorem step52 (W : Valuation τ sig (Elt F)) (h : P51 x0 x1 W) :
    P52 x0 x1 ((op52 (F := F)).result W) := by
  obtain ⟨h_main_arg0, h_main_arg1, h_main_v27⟩ := h
  exact ⟨(nullary_result_ne _ _ _ W (by decide)).trans h_main_arg0,
    (nullary_result_ne _ _ _ W (by decide)).trans h_main_arg1,
    (nullary_result_ne _ _ _ W (by decide)).trans h_main_v27,
    (nullary_result _ _ _ W).trans rfl⟩

/-- Operation 53. -/
abbrev op53 : HloOp τ sig (Elt F) :=
  binary main_v27 main_cst_8 main_v28 (mulf : (⟨S_, .f32⟩ : BufTy).Contents (Elt F) → (⟨S_, .f32⟩ : BufTy).Contents (Elt F) → (⟨S_, .f32⟩ : BufTy).Contents (Elt F))

/-- What the buffers that are read later hold after operation 53. -/
abbrev P53 (W : Valuation τ sig (Elt F)) : Prop :=
  W (Proc.devRef .tc main_arg0) = x0 ∧
  W (Proc.devRef .tc main_arg1) = x1 ∧
  W (Proc.devRef .tc main_v28) = val_main_v28 (F := F) x0 x1

theorem step53 (W : Valuation τ sig (Elt F)) (h : P52 x0 x1 W) :
    P53 x0 x1 ((op53 (F := F)).result W) := by
  obtain ⟨h_main_arg0, h_main_arg1, h_main_v27, h_main_cst_8⟩ := h
  exact ⟨(binary_result_ne _ _ _ _ _ _ _ W (by decide)).trans h_main_arg0,
    (binary_result_ne _ _ _ _ _ _ _ W (by decide)).trans h_main_arg1,
    (binary_result _ _ _ _ _ _ _ W).trans (by rw [h_main_v27, h_main_cst_8] <;> rfl)⟩

end Cert.RefRun

end
-- ==== Proof.RefRun.lean ====
/-
  The run of the reference.

  The reference's @main is a straight line of 53 operations, each writing one buffer from the contents of at most
  three others. Carried along the line is what the buffers that are still to be read hold: the two arguments their
  launch contents, every other one its stage as a function of the arguments. One operation moves these facts one
  step: the buffer it writes takes its function of the operands' stages, which is the next stage by definition,
  and every other buffer is left as it was. After the last operation the result buffer holds the last stage and
  the arguments are unchanged; so every weakly fair execution of @main from a memory with zero counters terminates
  with the result at the last stage of the arguments' launch contents.
-/
import proofs.«108505_g52810917872248_cont_9to1_m_94_21_alg».proof.Proof.RefRunP
import proofs.«108505_g52810917872248_cont_9to1_m_94_21_alg».proof.Proof.RefReadP
import proofs.«108505_g52810917872248_cont_9to1_m_94_21_alg».proof.Proof.RefRunSteps
import Idealize.ShloMosaic.Lib.StableHlo.Run

noncomputable section

namespace Cert.RefRun

open Cert.ReferenceIdeal Cert.ReferenceIdeal.Gen Cert.ReferenceIdeal.ReadP Cert.ReferenceIdeal.ValueP Idealize.ShloMosaic
  Idealize.ShloMosaic.TcCoe Idealize.SL.Sem Idealize.ShloMosaic.StableHlo

variable {F : FTy → Type} [FloatOps F]

set_option maxRecDepth 8192 in
/-- After the 53 operations, from any contents: the result buffer holds the last stage of the arguments' contents,
    and the arguments are unchanged. -/
theorem after_ops (V : Valuation τ sig (Elt F)) :
    P53 (V (Proc.devRef .tc main_arg0)) (V (Proc.devRef .tc main_arg1)) (after (ops (F := F)) V) :=
  step53 _ _ _ (step52 _ _ _ (step51 _ _ _ (step50 _ _ _ (step49 _ _ _ (step48 _ _ _ (step47 _ _ _ (step46 _ _ _ (step45 _ _ _ (step44 _ _ _ (step43 _ _ _ (step42 _ _ _ (step41 _ _ _ (step40 _ _ _ (step39 _ _ _ (step38 _ _ _ (step37 _ _ _ (step36 _ _ _ (step35 _ _ _ (step34 _ _ _ (step33 _ _ _ (step32 _ _ _ (step31 _ _ _ (step30 _ _ _ (step29 _ _ _ (step28 _ _ _ (step27 _ _ _ (step26 _ _ _ (step25 _ _ _ (step24 _ _ _ (step23 _ _ _ (step22 _ _ _ (step21 _ _ _ (step20 _ _ _ (step19 _ _ _ (step18 _ _ _ (step17 _ _ _ (step16 _ _ _ (step15 _ _ _ (step14 _ _ _ (step13 _ _ _ (step12 _ _ _ (step11 _ _ _ (step10 _ _ _ (step9 _ _ _ (step8 _ _ _ (step7 _ _ _ (step6 _ _ _ (step5 _ _ _ (step4 _ _ _ (step3 _ _ _ (step2 _ _ _ (step1 _ _ V ⟨rfl, rfl⟩))))))))))))))))))))))))))))))))))))))))))))))))))))

/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = val_main_v28 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have hP := after_ops (F := F) (launchContents m c)
      ⟨(h c main_v28).trans hP.2.2, (h c main_arg0).trans hP.1, (h c main_arg1).trans hP.2.1⟩)
    (run_seq scopedRefs_eq scopedSems_eq defs main (fun _ => ops) main_eq (fun _ => ops_sub) m ρ)

end Cert.RefRun

end
-- ==== Proof.lean ====
/-
  The proof of the claim: the kernel and the reference compute the same loss on the extended reals.

  For each of 1024 rows, with English logits `e` and Korean logits `k` over a vocabulary of 100000, both programs
  compute the Kullback–Leibler sum of `softmax e` against `log_softmax k`, add these over the rows and divide by 1024.
  The reference forms the softmax and the log-softmax at each row's maximum. The kernel walks each row in 50 chunks of
  2000 entries, keeping a running shift, the sum of exponentials and a cross term at that shift for the English logits
  and a running shift and sum for the Korean ones, rescaling the sums whenever a shift moves, and at the end forms
  `S / Z - m - log Z + mk + log Zk` per row. Over the real numbers — which the precondition makes every entry — the
  row's value does not depend on the shifts (`RowLoss.rowLoss_shift`) and equals the reference's sum
  (`RowLoss.refRow_eq_rowLoss`), so neither side's shift is ever identified: the kernel's starts from a large negative
  real, the reference's from minus infinity. Both results are `LossSpec.loss` of the two argument arrays.
  The three frames: the kernel's two are its generated frame certificates; the reference's is its run with the result
  dropped. The idealization rewrote nothing, so `preserves` is trivial.
-/
import proofs.«108505_g52810917872248_cont_9to1_m_94_21_alg».proof.Defs
import proofs.«108505_g52810917872248_cont_9to1_m_94_21_alg».proof.Proof.Gen.Kernel
import proofs.«108505_g52810917872248_cont_9to1_m_94_21_alg».proof.Proof.Gen.Kernel.Skeleton
import proofs.«108505_g52810917872248_cont_9to1_m_94_21_alg».proof.Proof.Gen.Kernel.Launch
import proofs.«108505_g52810917872248_cont_9to1_m_94_21_alg».proof.Proof.Gen.Kernel.Points
import proofs.«108505_g52810917872248_cont_9to1_m_94_21_alg».proof.Proof.Gen.Kernel.Frame
import proofs.«108505_g52810917872248_cont_9to1_m_94_21_alg».proof.Proof.Gen.KernelIdeal
import proofs.«108505_g52810917872248_cont_9to1_m_94_21_alg».proof.Proof.Gen.KernelIdeal.Skeleton
import proofs.«108505_g52810917872248_cont_9to1_m_94_21_alg».proof.Proof.Gen.KernelIdeal.Launch
import proofs.«108505_g52810917872248_cont_9to1_m_94_21_alg».proof.Proof.Gen.KernelIdeal.Points
import proofs.«108505_g52810917872248_cont_9to1_m_94_21_alg».proof.Proof.Gen.KernelIdeal.Frame
import proofs.«108505_g52810917872248_cont_9to1_m_94_21_alg».proof.Proof.Gen.ReferenceIdeal
import proofs.«108505_g52810917872248_cont_9to1_m_94_21_alg».proof.Proof.Gen.Pre_finite_inputs
import proofs.«108505_g52810917872248_cont_9to1_m_94_21_alg».proof.Proof.KValue
import proofs.«108505_g52810917872248_cont_9to1_m_94_21_alg».proof.Proof.RefValue
import proofs.«108505_g52810917872248_cont_9to1_m_94_21_alg».proof.Proof.RefRun
import proofs.«108505_g52810917872248_cont_9to1_m_94_21_alg».proof.Proof.Finite
import Idealize.ShloMosaic.Adequacy
import Idealize.ShloMosaic.Init

noncomputable section

namespace Cert.Proof

open Idealize.ShloMosaic Idealize.ShloMosaic.TcCoe Idealize.SL.Sem Cert.LossSpec

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.RefRun.run m ρ)

theorem preserves : Cert.preserves_Kernel_KernelIdeal := trivial

/-- Both programs end with the loss of the argument arrays, which the precondition makes real-valued. -/
theorem algebraic : Cert.algebraic_KernelIdeal_ReferenceIdeal := by
  intro m ρ m' ρ' hpre hagree
  have hR : ∀ c : Dev Cert.KernelIdeal.nD, RealArr (Cert.KernelIdeal.Inv.KArr m c) ∧ RealArr (Cert.KernelIdeal.Inv.EArr m c) :=
    fun c => Cert.Finite.real_of_pre _ _ (hpre c)
  refine ⟨fun c => fun _ => loss (Cert.KernelIdeal.Inv.KArr m c) (Cert.KernelIdeal.Inv.EArr m c),
    Cert.KernelIdeal.KValue.run m ρ (fun c => (hR c).1) (fun c => (hR c).2), ?_⟩
  refine (θ_run Cert.ReferenceIdeal.defs _ _).mono (fun _ h c => ⟨(h c).1.trans ?_, (h c).2⟩) (Cert.RefRun.run m' ρ')
  rw [(hagree c).1, (hagree c).2]
  funext i
  exact Cert.RefValue.ref_value _ _ (hR c).1 (hR c).2 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
